-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg5 : FVec F S8 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x16 .f32) (main_arg3 : FVec F S16 .f32) (main_arg4 : FVec F S16x8 .f32) (main_arg5 : FVec F S8 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x8 : Shape := ⟨2, ![16, 8]⟩
abbrev S8 : Shape := ⟨1, ![8]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S100000x16 : Shape := ⟨2, ![100000, 16]⟩
abbrev S5000x256 : Shape := ⟨2, ![5000, 256]⟩
abbrev S5000x1 : Shape := ⟨2, ![5000, 1]⟩
abbrev S5000x16 : Shape := ⟨2, ![5000, 16]⟩
abbrev S3300000x16 : Shape := ⟨2, ![3300000, 16]⟩
abbrev S1x16 : Shape := ⟨2, ![1, 16]⟩
abbrev S100000x8 : Shape := ⟨2, ![100000, 8]⟩
abbrev S5000x8 : Shape := ⟨2, ![5000, 8]⟩
abbrev S3300000x8 : Shape := ⟨2, ![3300000, 8]⟩
abbrev S1x8 : Shape := ⟨2, ![1, 8]⟩
abbrev S5000 : Shape := ⟨1, ![5000]⟩

abbrev nBuf : Space → Nat
  | .hbm => 59
  | .vmem => 22
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x16, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000x16, .f32⟩
  | .hbm, ⟨38, _⟩ => ⟨S_, .f32⟩
  | .hbm, ⟨39, _⟩ => ⟨S100000x16, .f32⟩
  | .hbm, ⟨40, _⟩ => ⟨S3300000x1, .i32⟩
  | .hbm, ⟨41, _⟩ => ⟨S100000x16, .f32⟩
  | .hbm, ⟨42, _⟩ => ⟨S1x16, .f32⟩
  | .hbm, ⟨43, _⟩ => ⟨S100000x8, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000x8, .f32⟩
  | .hbm, ⟨53, _⟩ => ⟨S_, .f32⟩
  | .hbm, ⟨54, _⟩ => ⟨S100000x8, .f32⟩
  | .hbm, ⟨55, _⟩ => ⟨S3300000x1, .i32⟩
  | .hbm, ⟨56, _⟩ => ⟨S100000x8, .f32⟩
  | .hbm, ⟨57, _⟩ => ⟨S1x8, .f32⟩
  | .hbm, ⟨58, _⟩ => ⟨S100000x8, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S16x8, .f32⟩
  | .local _ .vmem, ⟨13, _⟩ => ⟨S5000x8, .f32⟩
  | .local _ .vmem, ⟨14, _⟩ => ⟨S5000x8, .f32⟩
  | .local _ .vmem, ⟨15, _⟩ => ⟨S5000x8, .f32⟩
  | .local _ .vmem, ⟨16, _⟩ => ⟨S5000x8, .f32⟩
  | .local _ .vmem, ⟨17, _⟩ => ⟨S5000x1, .f32⟩
  | .local _ .vmem, ⟨18, _⟩ => ⟨S5000x1, .f32⟩
  | .local _ .vmem, ⟨19, _⟩ => ⟨S1x8, .f32⟩
  | .local _ .vmem, ⟨20, _⟩ => ⟨S5000x8, .f32⟩
  | .local _ .vmem, ⟨21, _⟩ => ⟨S5000x8, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x8 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x8 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x8_S16x8_0_0 : ∀ a, (![0, 0] : Fin 2 → Nat) a + S16x8.size a ≤ S16x8.size a
  h_S16x8 : 0 < S16x8.numel
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  scatter_S100000_S3300000x1_S3300000_n_0_0_1_wf : ScatterDims.WF S100000 S3300000x1 S3300000 [] [0] [0] 1
  dot_S5000x256_S256x16_S5000x16_1_0_0_1_n_n_wf : DotDims.WF S5000x256 S256x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x8_S5000x8_1_0_0_1_n_n_wf : DotDims.WF S5000x16 S16x8 S5000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x8.size a ≤ S16x8.size a
  hwx1_3 : ∀ i : grid1.Coords, EltTy.bits .f32 = 32 ∨ (Rect.block (s := S16x8) S16x8.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x8.size a ≤ S100000x8.size a
  hwx1_4 : ∀ i : grid1.Coords, EltTy.bits .f32 = 32 ∨ (Rect.block (s := S100000x8) S5000x8.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x8.size a ≤ S100000x8.size a
  hwx2_0 : ∀ i : grid2.Coords, EltTy.bits .f32 = 32 ∨ (Rect.block (s := S100000x8) S5000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8.size a ≤ S1x8.size a
  hwx2_2 : ∀ i : grid2.Coords, EltTy.bits .f32 = 32 ∨ (Rect.block (s := S1x8) S1x8.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x8.size a ≤ S100000x8.size a
  hwx2_3 : ∀ i : grid2.Coords, EltTy.bits .f32 = 32 ∨ (Rect.block (s := S100000x8) S5000x8.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S16x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x8.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x8.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x8 : Shape := ⟨2, ![16, 8]⟩
abbrev S8 : Shape := ⟨1, ![8]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩
abbrev S100000x1 : Shape := ⟨2, ![100000, 1]⟩

abbrev nBuf : Space → Nat
  | .hbm => 144
  | .vmem => 0
  | .smem => 0
  | _ => 0

abbrev hbmTy0_0 (i : Nat) : BufTy := match i % 128 with
  | 0 => ⟨S100000x256, .f32⟩
  | 1 => ⟨S2x3200000, .i32⟩
  | 2 => ⟨S256x16, .f32⟩
  | 3 => ⟨S16, .f32⟩
  | 4 => ⟨S16x8, .f32⟩
  | 5 => ⟨S8, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S3300000, .i32⟩
  | 30 => ⟨S3300000, .i1⟩
  | 31 => ⟨S_, .i32⟩
  | 32 => ⟨S3300000, .i32⟩
  | 33 => ⟨S3300000, .i32⟩
  | 34 => ⟨S3300000, .i32⟩
  | 35 => ⟨S3300000x1, .i32⟩
  | 36 => ⟨S3300000, .f32⟩
  | 37 => ⟨S_, .i32⟩
  | 38 => ⟨S3300000, .i32⟩
  | 39 => ⟨S3300000, .i1⟩
  | 40 => ⟨S_, .i32⟩
  | 41 => ⟨S3300000, .i32⟩
  | 42 => ⟨S3300000, .i32⟩
  | 43 => ⟨S3300000, .i32⟩
  | 44 => ⟨S3300000x1, .i32⟩
  | 45 => ⟨S3300000, .f32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x1, .f32⟩
  | 57 => ⟨S3300000x16, .f32⟩
  | 58 => ⟨S3300000x16, .f32⟩
  | 59 => ⟨S_, .f32⟩
  | 60 => ⟨S100000x16, .f32⟩
  | 61 => ⟨S3300000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x8, .f32⟩
  | 70 => ⟨S100000, .i32⟩
  | 71 => ⟨S1x3200000, .i32⟩
  | 72 => ⟨S3200000, .i32⟩
  | 73 => ⟨S3300000, .i32⟩
  | 74 => ⟨S1x3200000, .i32⟩
  | 75 => ⟨S3200000, .i32⟩
  | 76 => ⟨S3300000, .i32⟩
  | 77 => ⟨S_, .f32⟩
  | 78 => ⟨S3300000, .f32⟩
  | 79 => ⟨S_, .f32⟩
  | 80 => ⟨S100000, .f32⟩
  | 81 => ⟨S3300000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S_, .i32⟩
  | 111 => ⟨S3300000, .i32⟩
  | 112 => ⟨S3300000, .i1⟩
  | 113 => ⟨S_, .i32⟩
  | 114 => ⟨S3300000, .i32⟩
  | 115 => ⟨S3300000, .i32⟩
  | 116 => ⟨S3300000, .i32⟩
  | 117 => ⟨S3300000x1, .i32⟩
  | 118 => ⟨S3300000x8, .f32⟩
  | 119 => ⟨S3300000x1, .f32⟩
  | 120 => ⟨S3300000x8, .f32⟩
  | 121 => ⟨S3300000x8, .f32⟩
  | 122 => ⟨S_, .f32⟩
  | 123 => ⟨S100000x8, .f32⟩
  | 124 => ⟨S3300000x1, .i32⟩
  | 125 => ⟨S100000x8, .f32⟩
  | 126 => ⟨S1x8, .f32⟩
  | 127 => ⟨S100000x8, .f32⟩
  | _ => ⟨S100000x256, .f32⟩

abbrev hbmTy0_1 (i : Nat) : BufTy := match i % 128 with
  | 0 => ⟨S100000x8, .f32⟩
  | 1 => ⟨S_, .f32⟩
  | 2 => ⟨S100000, .f32⟩
  | 3 => ⟨S_, .f32⟩
  | 4 => ⟨S100000, .f32⟩
  | 5 => ⟨S100000, .f32⟩
  | 6 => ⟨S100000x1, .f32⟩
  | 7 => ⟨S100000x8, .f32⟩
  | 8 => ⟨S100000x8, .f32⟩
  | 9 => ⟨S100000x8, .f32⟩
  | 10 => ⟨S_, .f32⟩
  | 11 => ⟨S100000, .f32⟩
  | 12 => ⟨S100000x1, .f32⟩
  | 13 => ⟨S100000x1, .f32⟩
  | 14 => ⟨S100000x8, .f32⟩
  | 15 => ⟨S100000x8, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_call3_cst : Ref sig .tc := ⟨.hbm, 129, rfl⟩
abbrev main_call3_v0 : Ref sig .tc := ⟨.hbm, 130, rfl⟩
abbrev main_call3_cst_0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_cst_1 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_v95 : Ref sig .tc := ⟨.hbm, 143, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000_S100000x1_0 : S100000.BroadcastsInDim S100000x1 (![0] : Fin 1 → Fin S100000x1.rank)
  bcast_S100000x1_S100000x8_0_1 : S100000x1.BroadcastsInDim S100000x8 (![0, 1] : Fin 2 → Fin S100000x8.rank)
  dot_S100000x256_S256x16_S100000x16_1_0_0_1_n_n_wf : DotDims.WF S100000x256 S256x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1

variable [Facts₀]

def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf

class Facts : Prop extends Facts₀ where

variable [Facts]
-- ==== Proof.KernelRun.lean ====
/-
  The idealized kernel program's run with its RESULT named.  @main is five stretches of host operations around three
  kernel regions; the buffer contents at the boundaries between them are a fold from the launch memory (`W0` … `W8`).
  Every weakly fair execution ends with every unscoped buffer at the last boundary's contents `W8`; read at the result
  buffer this names the program's result, beside the argument arrays ending as launched.
-/
import proofs.«126378_j16501264351680_2_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main terminates, nothing faulting, with the
    result buffer at the last boundary's contents and the argument arrays as launched: the launch over the program's
    eight segments, the last thread state read against the final state. -/
theorem run_result : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.Gcn.KernelRun

end
-- ==== Proof.Spec.lean ====
/-
  The mathematics of a two-layer graph convolution with symmetric normalisation, as plain functions on the
  extended reals, index by index.

  A node table has 100000 rows.  With `d` the per-node scale (the inverse square root of the in-degree, 0 for an
  isolated node), a layer sends a table `H` to `out(n) = d(n) · Σ_{e → n} d(src e) · (H W)(src e) + b`.  One program scales
  the rows of `H W` by `d` before the edge sum and the sums by `d` after it; the other multiplies every message by
  `d(src e) · d(dst e)`.  The functions below are the per-row pieces that the first arrangement computes between its
  edge sums: `scaledFeatures` (rows of `X W` times `d`), `midLayer` (scale, bias, rectify, multiply by the second weight
  matrix, scale again) and `logSoftmaxRows` (scale, bias, then the logarithm of the row softmax).
-/
import Idealize.ShloMosaic.PureOps.Ideal
import Idealize.ShloMosaic.Lib.ValueIdx

noncomputable section

open scoped BigOperators

namespace Cert.Gcn

open Idealize.ShloMosaic Idealize.ShloMosaic.ValueIdx

/-- The node features, 100000 rows of 256. -/
abbrev SX : Shape := ⟨2, ![100000, 256]⟩
/-- The first weight matrix. -/
abbrev SW1 : Shape := ⟨2, ![256, 16]⟩
/-- A per-node column. -/
abbrev SCol : Shape := ⟨2, ![100000, 1]⟩
/-- The hidden table, 100000 rows of 16. -/
abbrev SH1 : Shape := ⟨2, ![100000, 16]⟩
/-- The first bias as a row. -/
abbrev SB1 : Shape := ⟨2, ![1, 16]⟩
/-- The second weight matrix. -/
abbrev SW2 : Shape := ⟨2, ![16, 8]⟩
/-- The output table, 100000 rows of 8. -/
abbrev SH2 : Shape := ⟨2, ![100000, 8]⟩
/-- The second bias as a row. -/
abbrev SB2 : Shape := ⟨2, ![1, 8]⟩

/-- Row `n` of `X · W`, scaled by the node's scale `D(n)`. -/
def scaledFeatures (X : FVec Ideal SX .f32) (W : FVec Ideal SW1 .f32) (D : FVec Ideal SCol .f32) : FVec Ideal SH1 .f32 :=
  fun j => (∑ k : Fin 256, X (ix2 (j 0) k) * W (ix2 k (j 1))) * D (ix2 (j 0) 0)

theorem scaledFeatures_apply (X : FVec Ideal SX .f32) (W : FVec Ideal SW1 .f32) (D : FVec Ideal SCol .f32)
    (n : Fin 100000) (c : Fin 16) :
    scaledFeatures X W D (ix2 n c) = (∑ k : Fin 256, X (ix2 n k) * W (ix2 k c)) * D (ix2 n 0) := rfl

/-- From the edge sums `A` of the first layer: scale row `n` by `D(n)`, add the bias, rectify, multiply by the second
    weight matrix, and scale by `D(n)` again. -/
def midLayer (A : FVec Ideal SH1 .f32) (D : FVec Ideal SCol .f32) (B : FVec Ideal SB1 .f32) (W : FVec Ideal SW2 .f32) :
    FVec Ideal SH2 .f32 :=
  fun j => (∑ k : Fin 16, max (A (ix2 (j 0) k) * D (ix2 (j 0) 0) + B (ix2 0 k)) 0 * W (ix2 k (j 1))) * D (ix2 (j 0) 0)

theorem midLayer_apply (A : FVec Ideal SH1 .f32) (D : FVec Ideal SCol .f32) (B : FVec Ideal SB1 .f32) (W : FVec Ideal SW2 .f32)
    (n : Fin 100000) (c : Fin 8) :
    midLayer A D B W (ix2 n c)
      = (∑ k : Fin 16, max (A (ix2 n k) * D (ix2 n 0) + B (ix2 0 k)) 0 * W (ix2 k c)) * D (ix2 n 0) := rfl

/-- The largest of a row's eight entries (`⊥` is the maximum's neutral element). -/
def rowMax (h : Fin 8 → EReal) : EReal := (Finset.univ : Finset (Fin 8)).fold max ⊥ h

/-- The logarithm of the softmax of a row of eight, in the shifted form: `(h q − max h) − log Σ_r exp (h r − max h)`. -/
def logSoftmax (h : Fin 8 → EReal) (q : Fin 8) : EReal :=
  (h q - rowMax h) - Ideal.log (∑ r : Fin 8, Ideal.exp (h r - rowMax h))

/-- From the edge sums `A` of the second layer: scale row `n` by `D(n)`, add the bias, and take the row's
    log-softmax. -/
def logSoftmaxRows (A : FVec Ideal SH2 .f32) (D : FVec Ideal SCol .f32) (B : FVec Ideal SB2 .f32) : FVec Ideal SH2 .f32 :=
  fun j => logSoftmax (fun r => A (ix2 (j 0) r) * D (ix2 (j 0) 0) + B (ix2 0 r)) (j 1)

theorem logSoftmaxRows_apply (A : FVec Ideal SH2 .f32) (D : FVec Ideal SCol .f32) (B : FVec Ideal SB2 .f32)
    (n : Fin 100000) (q : Fin 8) :
    logSoftmaxRows A D B (ix2 n q) = logSoftmax (fun r => A (ix2 n r) * D (ix2 n 0) + B (ix2 0 r)) q := rfl

end Cert.Gcn

end
-- ==== Proof.HostTerms.lean ====
/-
  The host side of the kernel program as pure terms of the argument arrays: the edge list's two rows with the
  self loops appended, the wrap-around of a negative source index, the in-degree (a segment sum of ones over the
  destinations), its inverse square root where positive, the gather-then-segment-sum along the edges, and the biases
  as rows — and, over them and the three row-wise functions of the specification, the program's result as ONE function
  of the arguments.
-/
import proofs.«126378_j16501264351680_2_alg».proof.Proof.Gen.KernelIdeal
import proofs.«126378_j16501264351680_2_alg».proof.Proof.Spec

noncomputable section

namespace Cert.Gcn.K

open Cert.KernelIdeal Cert.KernelIdeal.Gen Idealize.ShloMosaic

variable {F : FTy → Type} [FloatOps F]

/-- The edges' source rows: row 0 of the edge list, then every node once (the self loops). -/
def srcV (ei : IVec S2x3200000 32) : IVec S3300000 32 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0

/-- The edges' destination rows: row 1 of the edge list, then every node once. -/
def dstV (ei : IVec S2x3200000 32) : IVec S3300000 32 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- A vector of row indices as the column of start indices a gather or scatter takes. -/
def col (v : IVec S3300000 32) : IVec S3300000x1 32 := broadcastInDim S3300000x1 ![0] bcast_S3300000_S3300000x1_0 v

/-- A negative row index counts from the end: `v < 0 ? v + 100000 : v`. -/
def wrap (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- The in-degree with self loops: ones summed into the destination rows. -/
def deg (ei : IVec S2x3200000 32) : FVec F S100000 .f32 :=
  Host.scatterAdd scatter_S100000_S3300000x1_S3300000_n_0_0_1
    (broadcastInDim S100000 ![] bcast_S_S100000 (constant S_ .f32 0x00000000#32)) (col (dstV ei))
    (broadcastInDim S3300000 ![] bcast_S_S3300000 (constant S_ .f32 0x3F800000#32))

/-- The per-node scale: the inverse square root of the degree where it is positive, zero elsewhere. -/
def dinv (ei : IVec S2x3200000 32) : FVec F S100000 .f32 :=
  select (cmpf .ogt (deg (F := F) ei) (broadcastInDim S100000 ![] bcast_S_S100000 (constant S_ .f32 0x00000000#32)))
    (Host.rsqrt (deg ei)) (broadcastInDim S100000 ![] bcast_S_S100000 (id (constant S_ .f32 0x00000000#32)))

/-- The scale as the column the kernels read. -/
def dinvCol (ei : IVec S2x3200000 32) : FVec F S100000x1 .f32 :=
  shapeCast S100000x1 (dinv (F := F) ei) shapeCasts_S100000_S100000x1

/-- Rows of a 16-wide table gathered at the edges' sources and summed into the edges' destinations. -/
def agg16 (ei : IVec S2x3200000 32) (H : FVec F S100000x16 .f32) : FVec F S100000x16 .f32 :=
  Host.scatterAdd scatter_S100000x16_S3300000x1_S3300000x16_1_0_0_1
    (broadcastInDim S100000x16 ![] bcast_S_S100000x16 (constant S_ .f32 0x00000000#32)) (col (dstV ei))
    (Host.gather gather_S100000x16_S3300000x1_S3300000x16_1_0_n_n_0_1_116 H (col (wrap (srcV ei))))

/-- The same for an 8-wide table. -/
def agg8 (ei : IVec S2x3200000 32) (H : FVec F S100000x8 .f32) : FVec F S100000x8 .f32 :=
  Host.scatterAdd scatter_S100000x8_S3300000x1_S3300000x8_1_0_0_1
    (broadcastInDim S100000x8 ![] bcast_S_S100000x8 (constant S_ .f32 0x00000000#32)) (col (dstV ei))
    (Host.gather gather_S100000x8_S3300000x1_S3300000x8_1_0_n_n_0_1_18 H (col (wrap (srcV ei))))

/-- The first bias as a row. -/
def rowB1 (b : FVec F S16 .f32) : FVec F S1x16 .f32 := shapeCast S1x16 b shapeCasts_S16_S1x16
/-- The second bias as a row. -/
def rowB2 (b : FVec F S8 .f32) : FVec F S1x8 .f32 := shapeCast S1x8 b shapeCasts_S8_S1x8

/-- The kernel program's result as one function of its six arguments, at the ideal instance: features scaled,
    summed along the edges, the middle layer, summed along the edges again, and the rows' log-softmax. -/
def result (x0 : FVec Ideal S100000x256 .f32) (ei : IVec S2x3200000 32) (x2 : FVec Ideal S256x16 .f32)
    (x3 : FVec Ideal S16 .f32) (x4 : FVec Ideal S16x8 .f32) (x5 : FVec Ideal S8 .f32) : FVec Ideal S100000x8 .f32 :=
  Cert.Gcn.logSoftmaxRows
    (agg8 ei (Cert.Gcn.midLayer (agg16 ei (Cert.Gcn.scaledFeatures x0 x2 (dinvCol ei))) (dinvCol ei) (rowB1 x3) x4))
    (dinvCol ei) (rowB2 x5)

end Cert.Gcn.K

end
-- ==== Proof.HostReads.lean ====
/-
  The host operations between the kernels, read as functions of the buffers they find.

  The program computes, before its first kernel, the edge list's two rows with one self loop per node appended, the
  in-degree of every node (ones summed into the destination rows), and the per-node scale: the inverse square root of
  the degree where the degree is positive, zero elsewhere, laid out as a column. Between two kernels it gathers the rows
  of the earlier kernel's table at the edges' sources (a negative source index counting from the end) and sums them into
  the edges' destinations, and lays the next bias out as a row.

  Each lemma here says what ONE stretch of those operations leaves in ONE buffer, as a term of the contents the stretch
  starts from — whatever those contents are, and at any float instance: a buffer the stretch computes is the
  operations' composed term of the buffers it reads; a buffer the stretch does not write is left as it was.
-/
import proofs.«126378_j16501264351680_2_alg».proof.Proof.Gen.KernelIdeal.Frame
import proofs.«126378_j16501264351680_2_alg».proof.Proof.HostTerms
import Idealize.ShloMosaic.Lib.StableHlo.Run

noncomputable section

namespace Cert.Gcn.HostReads

open Cert.KernelIdeal Cert.KernelIdeal.Gen
open Idealize.ShloMosaic Idealize.ShloMosaic.TcCoe Idealize.SL.Sem Idealize.ShloMosaic.StableHlo

variable {F : FTy → Type} [FloatOps F]

/-! ## The first stretch: the edge rows, the degree, its inverse square root -/

theorem v3_of (W : Valuation τ sig (Elt F)) :
    StableHlo.after (hostOps0 (F := F)) W (Proc.devRef .tc main_v3) = K.srcV (W (Proc.devRef .tc main_arg1)) := by
  after_results
  rfl

theorem v6_of (W : Valuation τ sig (Elt F)) :
    StableHlo.after (hostOps0 (F := F)) W (Proc.devRef .tc main_v6) = K.dstV (W (Proc.devRef .tc main_arg1)) := by
  after_results
  rfl

theorem v12_of (W : Valuation τ sig (Elt F)) :
    StableHlo.after (hostOps0 (F := F)) W (Proc.devRef .tc main_v12)
      = cmpf .ogt (K.deg (F := F) (W (Proc.devRef .tc main_arg1)))
          (broadcastInDim S100000 ![] bcast_S_S100000 (constant S_ .f32 0x00000000#32)) := by
  after_results
  rfl

theorem v13_of (W : Valuation τ sig (Elt F)) :
    StableHlo.after (hostOps0 (F := F)) W (Proc.devRef .tc main_v13)
      = Host.rsqrt (K.deg (F := F) (W (Proc.devRef .tc main_arg1))) := by
  after_results
  rfl

theorem cst2_of (W : Valuation τ sig (Elt F)) :
    StableHlo.after (hostOps0 (F := F)) W (Proc.devRef .tc main_cst_2) = constant (F := F) S_ .f32 0x00000000#32 := by
  after_results

theorem keep0_arg0 (W : Valuation τ sig (Elt F)) :
    StableHlo.after (hostOps0 (F := F)) W (Proc.devRef .tc main_arg0) = W (Proc.devRef .tc main_arg0) := by after_results
theorem keep0_arg2 (W : Valuation τ sig (Elt F)) :
    StableHlo.after (hostOps0 (F := F)) W (Proc.devRef .tc main_arg2) = W (Proc.devRef .tc main_arg2) := by after_results
theorem keep0_arg3 (W : Valuation τ sig (Elt F)) :
    StableHlo.after (hostOps0 (F := F)) W (Proc.devRef .tc main_arg3) = W (Proc.devRef .tc main_arg3) := by after_results
theorem keep0_arg4 (W : Valuation τ sig (Elt F)) :
    StableHlo.after (hostOps0 (F := F)) W (Proc.devRef .tc main_arg4) = W (Proc.devRef .tc main_arg4) := by after_results
theorem keep0_arg5 (W : Valuation τ sig (Elt F)) :
    StableHlo.after (hostOps0 (F := F)) W (Proc.devRef .tc main_arg5) = W (Proc.devRef .tc main_arg5) := by after_results

/-! ## The second stretch: the choice between the inverse square root and zero -/

theorem v14_step (W : Valuation τ sig (Elt F)) :
    StableHlo.after (hostOps0_1 (F := F)) W (Proc.devRef .tc main_v14)
      = select (W (Proc.devRef .tc main_v12)) (W (Proc.devRef .tc main_v13))
          (broadcastInDim S100000 ![] bcast_S_S100000 (id (W (Proc.devRef .tc main_cst_2)))) := by
  after_results
  rfl

theorem keep0_1_v3 (W : Valuation τ sig (Elt F)) :
    StableHlo.after (hostOps0_1 (F := F)) W (Proc.devRef .tc main_v3) = W (Proc.devRef .tc main_v3) := by after_results
theorem keep0_1_v6 (W : Valuation τ sig (Elt F)) :
    StableHlo.after (hostOps0_1 (F := F)) W (Proc.devRef .tc main_v6) = W (Proc.devRef .tc main_v6) := by after_results
theorem keep0_1_arg0 (W : Valuation τ sig (Elt F)) :
    StableHlo.after (hostOps0_1 (F := F)) W (Proc.devRef .tc main_arg0) = W (Proc.devRef .tc main_arg0) := by after_results
theorem keep0_1_arg2 (W : Valuation τ sig (Elt F)) :
    StableHlo.after (hostOps0_1 (F := F)) W (Proc.devRef .tc main_arg2) = W (Proc.devRef .tc main_arg2) := by after_results
theorem keep0_1_arg3 (W : Valuation τ sig (Elt F)) :
    StableHlo.after (hostOps0_1 (F := F)) W (Proc.devRef .tc main_arg3) = W (Proc.devRef .tc main_arg3) := by after_results
theorem keep0_1_arg4 (W : Valuation τ sig (Elt F)) :
    StableHlo.after (hostOps0_1 (F := F)) W (Proc.devRef .tc main_arg4) = W (Proc.devRef .tc main_arg4) := by after_results
theorem keep0_1_arg5 (W : Valuation τ sig (Elt F)) :
    StableHlo.after (hostOps0_1 (F := F)) W (Proc.devRef .tc main_arg5) = W (Proc.devRef .tc main_arg5) := by after_results

/-! ## The third stretch: the scale as a column -/

theorem v15_step (W : Valuation τ sig (Elt F)) :
    StableHlo.after (hostOps0_2 (F := F)) W (Proc.devRef .tc main_v15)
      = shapeCast S100000x1 (W (Proc.devRef .tc main_v14)) shapeCasts_S100000_S100000x1 := by
  after_results
  rfl

theorem keep0_2_v3 (W : Valuation τ sig (Elt F)) :
    StableHlo.after (hostOps0_2 (F := F)) W (Proc.devRef .tc main_v3) = W (Proc.devRef .tc main_v3) := by after_results
theorem keep0_2_v6 (W : Valuation τ sig (Elt F)) :
    StableHlo.after (hostOps0_2 (F := F)) W (Proc.devRef .tc main_v6) = W (Proc.devRef .tc main_v6) := by after_results
theorem keep0_2_arg0 (W : Valuation τ sig (Elt F)) :
    StableHlo.after (hostOps0_2 (F := F)) W (Proc.devRef .tc main_arg0) = W (Proc.devRef .tc main_arg0) := by after_results
theorem keep0_2_arg2 (W : Valuation τ sig (Elt F)) :
    StableHlo.after (hostOps0_2 (F := F)) W (Proc.devRef .tc main_arg2) = W (Proc.devRef .tc main_arg2) := by after_results
theorem keep0_2_arg3 (W : Valuation τ sig (Elt F)) :
    StableHlo.after (hostOps0_2 (F := F)) W (Proc.devRef .tc main_arg3) = W (Proc.devRef .tc main_arg3) := by after_results
theorem keep0_2_arg4 (W : Valuation τ sig (Elt F)) :
    StableHlo.after (hostOps0_2 (F := F)) W (Proc.devRef .tc main_arg4) = W (Proc.devRef .tc main_arg4) := by after_results
theorem keep0_2_arg5 (W : Valuation τ sig (Elt F)) :
    StableHlo.after (hostOps0_2 (F := F)) W (Proc.devRef .tc main_arg5) = W (Proc.devRef .tc main_arg5) := by after_results

/-! ## The three stretches together: what the first kernel finds -/

/-- The scale column is the inverse square root of the in-degree where that is positive, zero elsewhere. -/
theorem entry0_v15 (W : Valuation τ sig (Elt F)) :
    StableHlo.after (hostOps0_2 (F := F)) (StableHlo.after (hostOps0_1 (F := F)) (StableHlo.after (hostOps0 (F := F)) W))
        (Proc.devRef .tc main_v15)
      = K.dinvCol (F := F) (W (Proc.devRef .tc main_arg1)) := by
  rw [v15_step, v14_step, v12_of, v13_of, cst2_of]
  rfl

theorem entry0_v3 (W : Valuation τ sig (Elt F)) :
    StableHlo.after (hostOps0_2 (F := F)) (StableHlo.after (hostOps0_1 (F := F)) (StableHlo.after (hostOps0 (F := F)) W))
        (Proc.devRef .tc main_v3)
      = K.srcV (W (Proc.devRef .tc main_arg1)) := by
  rw [keep0_2_v3, keep0_1_v3, v3_of]

theorem entry0_v6 (W : Valuation τ sig (Elt F)) :
    StableHlo.after (hostOps0_2 (F := F)) (StableHlo.after (hostOps0_1 (F := F)) (StableHlo.after (hostOps0 (F := F)) W))
        (Proc.devRef .tc main_v6)
      = K.dstV (W (Proc.devRef .tc main_arg1)) := by
  rw [keep0_2_v6, keep0_1_v6, v6_of]

theorem entry0_arg0 (W : Valuation τ sig (Elt F)) :
    StableHlo.after (hostOps0_2 (F := F)) (StableHlo.after (hostOps0_1 (F := F)) (StableHlo.after (hostOps0 (F := F)) W))
        (Proc.devRef .tc main_arg0)
      = W (Proc.devRef .tc main_arg0) := by
  rw [keep0_2_arg0, keep0_1_arg0, keep0_arg0]

theorem entry0_arg2 (W : Valuation τ sig (Elt F)) :
    StableHlo.after (hostOps0_2 (F := F)) (StableHlo.after (hostOps0_1 (F := F)) (StableHlo.after (hostOps0 (F := F)) W))
        (Proc.devRef .tc main_arg2)
      = W (Proc.devRef .tc main_arg2) := by
  rw [keep0_2_arg2, keep0_1_arg2, keep0_arg2]

theorem entry0_arg3 (W : Valuation τ sig (Elt F)) :
    StableHlo.after (hostOps0_2 (F := F)) (StableHlo.after (hostOps0_1 (F := F)) (StableHlo.after (hostOps0 (F := F)) W))
        (Proc.devRef .tc main_arg3)
      = W (Proc.devRef .tc main_arg3) := by
  rw [keep0_2_arg3, keep0_1_arg3, keep0_arg3]

theorem entry0_arg4 (W : Valuation τ sig (Elt F)) :
    StableHlo.after (hostOps0_2 (F := F)) (StableHlo.after (hostOps0_1 (F := F)) (StableHlo.after (hostOps0 (F := F)) W))
        (Proc.devRef .tc main_arg4)
      = W (Proc.devRef .tc main_arg4) := by
  rw [keep0_2_arg4, keep0_1_arg4, keep0_arg4]

theorem entry0_arg5 (W : Valuation τ sig (Elt F)) :
    StableHlo.after (hostOps0_2 (F := F)) (StableHlo.after (hostOps0_1 (F := F)) (StableHlo.after (hostOps0 (F := F)) W))
        (Proc.devRef .tc main_arg5)
      = W (Proc.devRef .tc main_arg5) := by
  rw [keep0_2_arg5, keep0_1_arg5, keep0_arg5]

/-! ## The stretch between the first and the second kernel -/

/-- The second kernel's table of edge sums: the first kernel's rows gathered at the edges' sources and summed into the
    edges' destinations. -/
theorem v26_of (W : Valuation τ sig (Elt F)) (ei : IVec S2x3200000 32)
    (h3 : W (Proc.devRef .tc main_v3) = K.srcV ei) (h6 : W (Proc.devRef .tc main_v6) = K.dstV ei) :
    StableHlo.after (hostOps1 (F := F)) W (Proc.devRef .tc main_v26) = K.agg16 (F := F) ei (W (Proc.devRef .tc main_v16)) := by
  after_results
  rw [h3, h6]
  rfl

theorem v27_of (W : Valuation τ sig (Elt F)) :
    StableHlo.after (hostOps1 (F := F)) W (Proc.devRef .tc main_v27) = K.rowB1 (F := F) (W (Proc.devRef .tc main_arg3)) := by
  after_results
  rfl

theorem keep1_v15 (W : Valuation τ sig (Elt F)) :
    StableHlo.after (hostOps1 (F := F)) W (Proc.devRef .tc main_v15) = W (Proc.devRef .tc main_v15) := by after_results
theorem keep1_v3 (W : Valuation τ sig (Elt F)) :
    StableHlo.after (hostOps1 (F := F)) W (Proc.devRef .tc main_v3) = W (Proc.devRef .tc main_v3) := by after_results
theorem keep1_v6 (W : Valuation τ sig (Elt F)) :
    StableHlo.after (hostOps1 (F := F)) W (Proc.devRef .tc main_v6) = W (Proc.devRef .tc main_v6) := by after_results
theorem keep1_arg4 (W : Valuation τ sig (Elt F)) :
    StableHlo.after (hostOps1 (F := F)) W (Proc.devRef .tc main_arg4) = W (Proc.devRef .tc main_arg4) := by after_results
theorem keep1_arg5 (W : Valuation τ sig (Elt F)) :
    StableHlo.after (hostOps1 (F := F)) W (Proc.devRef .tc main_arg5) = W (Proc.devRef .tc main_arg5) := by after_results

/-! ## The stretch between the second and the third kernel -/

theorem v38_of (W : Valuation τ sig (Elt F)) (ei : IVec S2x3200000 32)
    (h3 : W (Proc.devRef .tc main_v3) = K.srcV ei) (h6 : W (Proc.devRef .tc main_v6) = K.dstV ei) :
    StableHlo.after (hostOps2 (F := F)) W (Proc.devRef .tc main_v38) = K.agg8 (F := F) ei (W (Proc.devRef .tc main_v28)) := by
  after_results
  rw [h3, h6]
  rfl

theorem v39_of (W : Valuation τ sig (Elt F)) :
    StableHlo.after (hostOps2 (F := F)) W (Proc.devRef .tc main_v39) = K.rowB2 (F := F) (W (Proc.devRef .tc main_arg5)) := by
  after_results
  rfl

theorem keep2_v15 (W : Valuation τ sig (Elt F)) :
    StableHlo.after (hostOps2 (F := F)) W (Proc.devRef .tc main_v15) = W (Proc.devRef .tc main_v15) := by after_results

end Cert.Gcn.HostReads

end
-- ==== Proof.Region0.lean ====
/-
  The first kernel of the two-layer graph convolution, read as one function of its arrays.

  The kernel walks the 100000 rows of the feature table in 20 blocks of 5000 rows. At block `t` it multiplies rows
  `5000 t … 5000 t + 4999` of the features (256 columns) by the whole first weight matrix (256 × 16) and scales row `n`
  of the product by the node's scale `d(n)`, read from the same rows of the scale column. On exact values the narrowing of
  the operands before the product is the identity and the product accumulates into zero, so entry `(r, q)` of the block
  is `(Σ_k x(r, k) · w(k, q)) · d(r)`.

  The blocks' rows partition the table: row `n` lies in block `n / 5000` and in no other, and each block is written back
  once. Hence after the write-backs the output table holds, at `(n, q)`, `(Σ_k X(n, k) · W(k, q)) · D(n, 0)`, which is
  `scaledFeatures X W D`.
-/
import proofs.«126378_j16501264351680_2_alg».proof.Proof.Gen.KernelIdeal.Frame
import proofs.«126378_j16501264351680_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn.Region0

open Cert.KernelIdeal Cert.KernelIdeal.Gen Idealize.ShloMosaic Idealize.ShloMosaic.TcCoe
open Idealize.ShloMosaic.ValueIdx

/-- A column `[a, 1]` broadcast along the rows to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The operand indices of the block product `[5000, 256] × [256, 16]` at an output entry and a contraction index: the
    row comes from the output's row, the column from the output's column, the shared axis from the contraction index. -/

theorem lhs0_0 (i : S5000x16.Idx) (q : dot_S5000x256_S256x16_S5000x16_1_0_0_1_n_n.contr.Idx) :
    (dot_S5000x256_S256x16_S5000x16_1_0_0_1_n_n.lhsIdx i q 0).val = (i 0).val := by
  unfold DotDims.lhsIdx
  rw [dif_neg (show ¬(0 : Fin S5000x256.rank) ∈ dot_S5000x256_S256x16_S5000x16_1_0_0_1_n_n.lhsBatch by decide), dif_pos (show (0 : Fin S5000x256.rank) ∈ dot_S5000x256_S256x16_S5000x16_1_0_0_1_n_n.lhsNonContracting by decide)]
  rfl
theorem lhs0_1 (i : S5000x16.Idx) (q : dot_S5000x256_S256x16_S5000x16_1_0_0_1_n_n.contr.Idx) :
    (dot_S5000x256_S256x16_S5000x16_1_0_0_1_n_n.lhsIdx i q 1).val = (q ⟨0, by decide⟩).val :=
  dot_S5000x256_S256x16_S5000x16_1_0_0_1_n_n.lhsIdx_val_of_single rfl i q
theorem rhs0_0 (i : S5000x16.Idx) (q : dot_S5000x256_S256x16_S5000x16_1_0_0_1_n_n.contr.Idx) :
    (dot_S5000x256_S256x16_S5000x16_1_0_0_1_n_n.rhsIdx i q 0).val = (q ⟨0, by decide⟩).val :=
  dot_S5000x256_S256x16_S5000x16_1_0_0_1_n_n.rhsIdx_val_of_single rfl i q
theorem rhs0_1 (i : S5000x16.Idx) (q : dot_S5000x256_S256x16_S5000x16_1_0_0_1_n_n.contr.Idx) :
    (dot_S5000x256_S256x16_S5000x16_1_0_0_1_n_n.rhsIdx i q 1).val = (i 1).val := by
  unfold DotDims.rhsIdx
  rw [dif_neg (show ¬(1 : Fin S256x16.rank) ∈ dot_S5000x256_S256x16_S5000x16_1_0_0_1_n_n.rhsBatch by decide), dif_pos (show (1 : Fin S256x16.rank) ∈ dot_S5000x256_S256x16_S5000x16_1_0_0_1_n_n.rhsNonContracting by decide)]
  rfl

/-- The block product at an entry: row `r` of the first operand against column `q` of the second. -/
theorem matmul0_apply (x0 : FVec Ideal S5000x256 .bf16) (x1 : FVec Ideal S256x16 .bf16) (r : Fin 5000) (q : Fin 16) :
    matmul dot_S5000x256_S256x16_S5000x16_1_0_0_1_n_n none x0 x1 (constant (F := Ideal) S5000x16 .f32 0x00000000#32) (ix2 r q)
      = ∑ k : Fin 256, x0 (ix2 r k) * x1 (ix2 k q) := by
  refine (Ideal.matmul_constant_zero_apply dot_S5000x256_S256x16_S5000x16_1_0_0_1_n_n none x0 x1 (ix2 r q)).trans ?_
  rw [← Equiv.sum_comp (ValueIdx.contrEquiv1 dot_S5000x256_S256x16_S5000x16_1_0_0_1_n_n 256 rfl rfl).symm]
  refine Finset.sum_congr rfl fun k _ => ?_
  have hk := ValueIdx.contrEquiv1_symm_val dot_S5000x256_S256x16_S5000x16_1_0_0_1_n_n 256 rfl rfl k
  have el : dot_S5000x256_S256x16_S5000x16_1_0_0_1_n_n.lhsIdx (ix2 r q) ((ValueIdx.contrEquiv1 dot_S5000x256_S256x16_S5000x16_1_0_0_1_n_n 256 rfl rfl).symm k) = ix2 r k := funext fun a => Fin.ext (by
    match a with
    | ⟨0, _⟩ => exact lhs0_0 _ _
    | ⟨1, _⟩ => exact (lhs0_1 _ _).trans hk)
  have er : dot_S5000x256_S256x16_S5000x16_1_0_0_1_n_n.rhsIdx (ix2 r q) ((ValueIdx.contrEquiv1 dot_S5000x256_S256x16_S5000x16_1_0_0_1_n_n 256 rfl rfl).symm k) = ix2 k q := funext fun a => Fin.ext (by
    match a with
    | ⟨0, _⟩ => exact (rhs0_0 _ _).trans hk
    | ⟨1, _⟩ => exact rhs0_1 _ _)
  rw [el, er]

/-- The body's arithmetic at an entry of the block: the row of the features against the column of the weights, times
    the row's scale. Narrowing to the short format changes nothing on exact values. -/
theorem pay0_apply (x0 : Vec Ideal S5000x256 .f32) (x1 : Vec Ideal S256x16 .f32) (x2 : Vec Ideal S5000x1 .f32)
    (r : Fin 5000) (q : Fin 16) :
    k0_pay1 (F := Ideal) x0 x1 x2 (ix2 r q) = (∑ k : Fin 256, x0 (ix2 r k) * x1 (ix2 k q)) * x2 (ix2 r 0) := by
  unfold k0_pay1
  refine (mulf_apply _ _ (ix2 r q)).trans ?_
  refine congrArg₂ (· * ·) ?_ ?_
  · exact matmul0_apply _ _ r q
  · rw [shapeCast_self]
    exact broadcastTo_a1_ab_apply x2 broadcasts_S5000x1_S5000x16 r q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` the row-blocked windows sit at block row `t`, block column 0;
    the whole-array window (the weights) at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point `t` is rows `5000 t … 5000 t + 4999` of the feature table. -/
theorem iblk0_0_apply (c : Dev nD) (t : Fin cfg0.N) (r : Fin 5000) (k : Fin 256) (n : Fin 100000)
    (hn : n.val = t.val * 5000 + r.val) :
    (iblk0 V c 0 t : Vec Ideal S5000x256 .f32) (ix2 r k) = (V c main_arg0 : FVec Ideal SX .f32) (ix2 n k) := by
  obtain ⟨e0, e1, -⟩ := idx_facts0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * r.val = n.val; rw [e0, hn]; omega
  | ⟨1, _⟩ => show win0_0.index t (1 : Fin 2) * 256 + 1 * k.val = k.val; rw [e1]; omega

/-- The weights' block at every point is the whole weight matrix. -/
theorem iblk0_1_apply (c : Dev nD) (t : Fin cfg0.N) (k : Fin 256) (q : Fin 16) :
    (iblk0 V c 1 t : Vec Ideal S256x16 .f32) (ix2 k q) = (V c main_arg2 : FVec Ideal SW1 .f32) (ix2 k q) := by
  obtain ⟨-, -, e2, e3, -⟩ := idx_facts0 t
  unfold iblk0
  rw [View.read_apply]
  show V c main_arg2 _ = V c main_arg2 _
  refine congrArg (V c main_arg2) (funext fun a => Fin.ext ?_)
  match a with
  | ⟨0, _⟩ => show win0_1.index t (0 : Fin 2) * 256 + 1 * k.val = k.val; rw [e2]; omega
  | ⟨1, _⟩ => show win0_1.index t (1 : Fin 2) * 16 + 1 * q.val = q.val; rw [e3]; omega

/-- The scale column's block at point `t` is rows `5000 t … 5000 t + 4999` of the column. -/
theorem iblk0_2_apply (c : Dev nD) (t : Fin cfg0.N) (r : Fin 5000) (n : Fin 100000)
    (hn : n.val = t.val * 5000 + r.val) :
    (iblk0 V c 2 t : Vec Ideal S5000x1 .f32) (ix2 r 0) = (V c main_v15 : FVec Ideal SCol .f32) (ix2 n 0) := by
  obtain ⟨-, -, -, -, e4, e5, -⟩ := idx_facts0 t
  unfold iblk0
  rw [View.read_apply]
  show V c main_v15 _ = V c main_v15 _
  refine congrArg (V c main_v15) (funext fun a => Fin.ext ?_)
  match a with
  | ⟨0, _⟩ => show win0_2.index t (0 : Fin 2) * 5000 + 1 * r.val = n.val; rw [e4, hn]; omega
  | ⟨1, _⟩ => show win0_2.index t (1 : Fin 2) * 1 + 1 * 0 = 0; rw [e5]

/-- What point `t` writes back is block `t` of the scaled product table. -/
theorem flushed0_eq (c : Dev nD) (t : Fin cfg0.N) :
    (dat0 (F := Ideal) V c).flushed 3 t
      = ((cfg0.win 3).blk t).view.read (Elt Ideal) (scaledFeatures (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x16) hz, View.ld_unit_zero (S := S5000x1) hz]
  funext j
  have hN : grid0.N = 20 := N_0
  have ht : t.val < 20 := by have h : t.val < grid0.N := t.isLt; omega
  have hj0 : (j 0).val < 5000 := (j 0).isLt
  have hj1 : (j 1).val < 16 := (j 1).isLt
  obtain ⟨-, -, -, -, -, -, e6, e7⟩ := idx_facts0 t
  have hemb : ((cfg0.win 3).blk t).view.emb j
      = ix2 (⟨t.val * 5000 + (j 0).val, by omega⟩ : Fin 100000) (⟨(j 1).val, hj1⟩ : Fin 16) :=
    funext fun a => Fin.ext (by
      match a with
      | ⟨0, _⟩ => show win0_3.index t (0 : Fin 2) * 5000 + 1 * (j 0).val = t.val * 5000 + (j 0).val; rw [e6]; omega
      | ⟨1, _⟩ => show win0_3.index t (1 : Fin 2) * 16 + 1 * (j 1).val = (j 1).val; rw [e7]; omega)
  have hx : (win0 3).xinj (grid0.coords t) j = ix2 (⟨(j 0).val, hj0⟩ : Fin 5000) (⟨(j 1).val, hj1⟩ : Fin 16) :=
    funext fun a => by
      match a with
      | ⟨0, _⟩ => rfl
      | ⟨1, _⟩ => rfl
  show k0_pay1 (iblk0 V c 0 t) (iblk0 V c 1 t) (iblk0 V c 2 t) ((win0 3).xinj (grid0.coords t) j)
    = scaledFeatures (V c main_arg0) (V c main_arg2) (V c main_v15) (((cfg0.win 3).blk t).view.emb j)
  rw [hx, hemb]
  refine (pay0_apply (iblk0 V c 0 t) (iblk0 V c 1 t) (iblk0 V c 2 t) _ _).trans ?_
  refine Eq.trans ?_ (scaledFeatures_apply _ _ _ _ _).symm
  exact congrArg₂ (· * ·)
    (Finset.sum_congr rfl fun k _ => congrArg₂ (· * ·) (iblk0_0_apply V c t _ k _ rfl) (iblk0_1_apply V c t k _))
    (iblk0_2_apply V c t _ _ rfl)

/-- An index of the table is in point `t`'s block iff each coordinate is in the block's range on its axis. -/
theorem mem_blk0 (t : Fin cfg0.N) (i : S100000x16.Idx) :
    i ∈ ((cfg0.win 3).blk t).view.set ↔ ∀ a : Fin 2, win0_3.index t a * S5000x16.size a ≤ (i a).val
      ∧ (i a).val < win0_3.index t a * S5000x16.size a + S5000x16.size a := by
  show i ∈ ((View.whole main_v16).slice (win0_3.rect t)).set ↔ _
  rw [View.set_slice_whole, Rect.mem_set_unit]
  exact Iff.rfl

/-- Every entry of the table is written back by some point: row `n` by point `n / 5000`. -/
theorem cover0 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hN : grid0.N = 20 := N_0
  have hlt : (i 0).val / 5000 < grid0.N := by omega
  obtain ⟨-, -, -, -, -, -, e6, e7⟩ := idx_facts0 ⟨(i 0).val / 5000, hlt⟩
  refine ⟨⟨(i 0).val / 5000, hlt⟩, flush0_3 _, ?_⟩
  rw [mem_blk0]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, hlt⟩ (1 : Fin 2) * 16 ≤ (i 1).val
      ∧ (i 1).val < win0_3.index ⟨(i 0).val / 5000, hlt⟩ (1 : Fin 2) * 16 + 16
    rw [e7]
    omega

/-- After the write-backs the output table is the product of the features with the first weight matrix, each row
    scaled by its node's scale. -/
theorem final0 (c : Dev nD) :
    (dat0 (F := Ideal) V c).arrAt 3 cfg0.N = Cert.Gcn.scaledFeatures (V c main_arg0) (V c main_arg2) (V c main_v15) :=
  (dat0 (F := Ideal) V c).arrAt_eq_of_cover 3 (scaledFeatures (V c main_arg0) (V c main_arg2) (V c main_v15))
    (fun t _ => flushed0_eq V c t) cover0

end Cert.Gcn.Region0

end
-- ==== Proof.Region1.lean ====
/-
  The second kernel of the two-layer graph convolution, read as one function of its arrays.

  The kernel walks the 100000 rows of the first layer's edge sums in 20 blocks of 5000 rows. At block `t` it takes rows
  `5000 t … 5000 t + 4999` of the edge sums (16 columns) and of the scale column, the whole bias row (1 × 16) and the whole
  second weight matrix (16 × 8). Row `r` of the block is scaled by the node's scale `d(r)`, the bias is added, the
  result is rectified (the larger of it and zero), multiplied by the weight matrix, and scaled by `d(r)` again. On exact
  values the narrowing of the operands before the product is the identity and the product accumulates into zero, so entry
  `(r, q)` of the block is `(Σ_k max(a(r, k) · d(r) + b(k), 0) · w(k, q)) · d(r)`.

  The blocks' rows partition the table: row `n` lies in block `n / 5000` and in no other, and each block is written back
  once. Hence after the write-backs the output table holds, at `(n, q)`,
  `(Σ_k max(A(n, k) · D(n, 0) + B(0, k), 0) · W(k, q)) · D(n, 0)`, which is `midLayer A D B W`.
-/
import proofs.«126378_j16501264351680_2_alg».proof.Proof.Gen.KernelIdeal.Frame
import proofs.«126378_j16501264351680_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn.Region1

open Cert.KernelIdeal Cert.KernelIdeal.Gen Idealize.ShloMosaic Idealize.ShloMosaic.TcCoe
open Idealize.ShloMosaic.ValueIdx

/-- A column `[a, 1]` broadcast along the rows to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The operand indices of the block product `[5000, 16] × [16, 8]` at an output entry and a contraction index: the
    row comes from the output's row, the column from the output's column, the shared axis from the contraction index. -/

theorem lhs1_0 (i : S5000x8.Idx) (q : dot_S5000x16_S16x8_S5000x8_1_0_0_1_n_n.contr.Idx) :
    (dot_S5000x16_S16x8_S5000x8_1_0_0_1_n_n.lhsIdx i q 0).val = (i 0).val := by
  unfold DotDims.lhsIdx
  rw [dif_neg (show ¬(0 : Fin S5000x16.rank) ∈ dot_S5000x16_S16x8_S5000x8_1_0_0_1_n_n.lhsBatch by decide), dif_pos (show (0 : Fin S5000x16.rank) ∈ dot_S5000x16_S16x8_S5000x8_1_0_0_1_n_n.lhsNonContracting by decide)]
  rfl
theorem lhs1_1 (i : S5000x8.Idx) (q : dot_S5000x16_S16x8_S5000x8_1_0_0_1_n_n.contr.Idx) :
    (dot_S5000x16_S16x8_S5000x8_1_0_0_1_n_n.lhsIdx i q 1).val = (q ⟨0, by decide⟩).val :=
  dot_S5000x16_S16x8_S5000x8_1_0_0_1_n_n.lhsIdx_val_of_single rfl i q
theorem rhs1_0 (i : S5000x8.Idx) (q : dot_S5000x16_S16x8_S5000x8_1_0_0_1_n_n.contr.Idx) :
    (dot_S5000x16_S16x8_S5000x8_1_0_0_1_n_n.rhsIdx i q 0).val = (q ⟨0, by decide⟩).val :=
  dot_S5000x16_S16x8_S5000x8_1_0_0_1_n_n.rhsIdx_val_of_single rfl i q
theorem rhs1_1 (i : S5000x8.Idx) (q : dot_S5000x16_S16x8_S5000x8_1_0_0_1_n_n.contr.Idx) :
    (dot_S5000x16_S16x8_S5000x8_1_0_0_1_n_n.rhsIdx i q 1).val = (i 1).val := by
  unfold DotDims.rhsIdx
  rw [dif_neg (show ¬(1 : Fin S16x8.rank) ∈ dot_S5000x16_S16x8_S5000x8_1_0_0_1_n_n.rhsBatch by decide), dif_pos (show (1 : Fin S16x8.rank) ∈ dot_S5000x16_S16x8_S5000x8_1_0_0_1_n_n.rhsNonContracting by decide)]
  rfl

/-- The block product at an entry: row `r` of the first operand against column `q` of the second. -/
theorem matmul1_apply (x0 : FVec Ideal S5000x16 .bf16) (x1 : FVec Ideal S16x8 .bf16) (r : Fin 5000) (q : Fin 8) :
    matmul dot_S5000x16_S16x8_S5000x8_1_0_0_1_n_n none x0 x1 (constant (F := Ideal) S5000x8 .f32 0x00000000#32) (ix2 r q)
      = ∑ k : Fin 16, x0 (ix2 r k) * x1 (ix2 k q) := by
  refine (Ideal.matmul_constant_zero_apply dot_S5000x16_S16x8_S5000x8_1_0_0_1_n_n none x0 x1 (ix2 r q)).trans ?_
  rw [← Equiv.sum_comp (ValueIdx.contrEquiv1 dot_S5000x16_S16x8_S5000x8_1_0_0_1_n_n 16 rfl rfl).symm]
  refine Finset.sum_congr rfl fun k _ => ?_
  have hk := ValueIdx.contrEquiv1_symm_val dot_S5000x16_S16x8_S5000x8_1_0_0_1_n_n 16 rfl rfl k
  have el : dot_S5000x16_S16x8_S5000x8_1_0_0_1_n_n.lhsIdx (ix2 r q) ((ValueIdx.contrEquiv1 dot_S5000x16_S16x8_S5000x8_1_0_0_1_n_n 16 rfl rfl).symm k) = ix2 r k := funext fun a => Fin.ext (by
    match a with
    | ⟨0, _⟩ => exact lhs1_0 _ _
    | ⟨1, _⟩ => exact (lhs1_1 _ _).trans hk)
  have er : dot_S5000x16_S16x8_S5000x8_1_0_0_1_n_n.rhsIdx (ix2 r q) ((ValueIdx.contrEquiv1 dot_S5000x16_S16x8_S5000x8_1_0_0_1_n_n 16 rfl rfl).symm k) = ix2 k q := funext fun a => Fin.ext (by
    match a with
    | ⟨0, _⟩ => exact (rhs1_0 _ _).trans hk
    | ⟨1, _⟩ => exact rhs1_1 _ _)
  rw [el, er]

/-- The rectified hidden row at an entry: the edge sum scaled by the row's scale, plus the bias, and the larger of that
    and zero. -/
theorem hidden1_apply (x0 : Vec Ideal S5000x16 .f32) (x1 : Vec Ideal S5000x1 .f32) (x2 : Vec Ideal S1x16 .f32)
    (r : Fin 5000) (k : Fin 16) :
    maximumf
        (addf (mulf (shapeCast S5000x16 x0 shapeCasts_S5000x16_S5000x16)
            (broadcastTo S5000x16 (shapeCast S5000x1 x1 shapeCasts_S5000x1_S5000x1) broadcasts_S5000x1_S5000x16))
          (broadcastTo S5000x16 (shapeCast S1x16 (shapeCast S1x16 x2 shapeCasts_S1x16_S1x16) shapeCasts_S1x16_S1x16) broadcasts_S1x16_S5000x16))
        (broadcast S5000x16 (Scalar.ofBits (F := Ideal) .f32 0x00000000#32)) (ix2 r k)
      = max (x0 (ix2 r k) * x1 (ix2 r 0) + x2 (ix2 0 k)) 0 := by
  rw [shapeCast_self, shapeCast_self, shapeCast_self, shapeCast_self]
  refine (maximumf_apply _ _ (ix2 r k)).trans ?_
  refine congrArg₂ max ?_ Ideal.ofBits_zero_f32
  refine (addf_apply _ _ (ix2 r k)).trans ?_
  refine congrArg₂ (· + ·) ?_ (broadcastTo_1b_ab_apply x2 broadcasts_S1x16_S5000x16 r k)
  refine (mulf_apply _ _ (ix2 r k)).trans ?_
  exact congrArg (x0 (ix2 r k) * ·) (broadcastTo_a1_ab_apply x1 broadcasts_S5000x1_S5000x16 r k)

/-- The body's arithmetic at an entry of the block. Narrowing to the short format changes nothing on exact values. -/
theorem pay1_apply (x0 : Vec Ideal S5000x16 .f32) (x1 : Vec Ideal S5000x1 .f32) (x2 : Vec Ideal S1x16 .f32)
    (x3 : Vec Ideal S16x8 .f32) (x4 : Vec Ideal S5000x1 .f32) (r : Fin 5000) (q : Fin 8) :
    k1_pay1 (F := Ideal) x0 x1 x2 x3 x4 (ix2 r q)
      = (∑ k : Fin 16, max (x0 (ix2 r k) * x1 (ix2 r 0) + x2 (ix2 0 k)) 0 * x3 (ix2 k q)) * x4 (ix2 r 0) := by
  unfold k1_pay1
  refine (mulf_apply _ _ (ix2 r q)).trans ?_
  refine congrArg₂ (· * ·) ?_ ?_
  · refine (matmul1_apply _ _ r q).trans ?_
    refine Finset.sum_congr rfl fun k _ => ?_
    exact congrArg (· * x3 (ix2 k q)) (hidden1_apply x0 x1 x2 r k)
  · rw [shapeCast_self]
    exact broadcastTo_a1_ab_apply x4 broadcasts_S5000x1_S5000x8 r q

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: at point `t` the row-blocked windows sit at block row `t`, block column 0;
    the whole-array windows (the bias row, the weights) at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The edge sums' block at point `t` is rows `5000 t … 5000 t + 4999` of the table of edge sums. -/
theorem iblk1_0_apply (c : Dev nD) (t : Fin cfg1.N) (r : Fin 5000) (k : Fin 16) (n : Fin 100000)
    (hn : n.val = t.val * 5000 + r.val) :
    (iblk1 V c 0 t : Vec Ideal S5000x16 .f32) (ix2 r k) = (V c main_v26 : FVec Ideal SH1 .f32) (ix2 n k) := by
  obtain ⟨e0, e1, -⟩ := idx_facts1 t
  unfold iblk1
  rw [View.read_apply]
  show V c main_v26 _ = V c main_v26 _
  refine congrArg (V c main_v26) (funext fun a => Fin.ext ?_)
  match a with
  | ⟨0, _⟩ => show win1_0.index t (0 : Fin 2) * 5000 + 1 * r.val = n.val; rw [e0, hn]; omega
  | ⟨1, _⟩ => show win1_0.index t (1 : Fin 2) * 16 + 1 * k.val = k.val; rw [e1]; omega

/-- The scale column's block at point `t` is rows `5000 t … 5000 t + 4999` of the column. -/
theorem iblk1_1_apply (c : Dev nD) (t : Fin cfg1.N) (r : Fin 5000) (n : Fin 100000)
    (hn : n.val = t.val * 5000 + r.val) :
    (iblk1 V c 1 t : Vec Ideal S5000x1 .f32) (ix2 r 0) = (V c main_v15 : FVec Ideal SCol .f32) (ix2 n 0) := by
  obtain ⟨-, -, e2, e3, -⟩ := idx_facts1 t
  unfold iblk1
  rw [View.read_apply]
  show V c main_v15 _ = V c main_v15 _
  refine congrArg (V c main_v15) (funext fun a => Fin.ext ?_)
  match a with
  | ⟨0, _⟩ => show win1_1.index t (0 : Fin 2) * 5000 + 1 * r.val = n.val; rw [e2, hn]; omega
  | ⟨1, _⟩ => show win1_1.index t (1 : Fin 2) * 1 + 1 * 0 = 0; rw [e3]

/-- The bias row's block at every point is the whole row. -/
theorem iblk1_2_apply (c : Dev nD) (t : Fin cfg1.N) (k : Fin 16) :
    (iblk1 V c 2 t : Vec Ideal S1x16 .f32) (ix2 0 k) = (V c main_v27 : FVec Ideal SB1 .f32) (ix2 0 k) := by
  obtain ⟨-, -, -, -, e4, e5, -⟩ := idx_facts1 t
  unfold iblk1
  rw [View.read_apply]
  show V c main_v27 _ = V c main_v27 _
  refine congrArg (V c main_v27) (funext fun a => Fin.ext ?_)
  match a with
  | ⟨0, _⟩ => show win1_2.index t (0 : Fin 2) * 1 + 1 * 0 = 0; rw [e4]
  | ⟨1, _⟩ => show win1_2.index t (1 : Fin 2) * 16 + 1 * k.val = k.val; rw [e5]; omega

/-- The second weight matrix's block at every point is the whole matrix. -/
theorem iblk1_3_apply (c : Dev nD) (t : Fin cfg1.N) (k : Fin 16) (q : Fin 8) :
    (iblk1 V c 3 t : Vec Ideal S16x8 .f32) (ix2 k q) = (V c main_arg4 : FVec Ideal SW2 .f32) (ix2 k q) := by
  obtain ⟨-, -, -, -, -, -, e6, e7, -⟩ := idx_facts1 t
  unfold iblk1
  rw [View.read_apply]
  show V c main_arg4 _ = V c main_arg4 _
  refine congrArg (V c main_arg4) (funext fun a => Fin.ext ?_)
  match a with
  | ⟨0, _⟩ => show win1_3.index t (0 : Fin 2) * 16 + 1 * k.val = k.val; rw [e6]; omega
  | ⟨1, _⟩ => show win1_3.index t (1 : Fin 2) * 8 + 1 * q.val = q.val; rw [e7]; omega

/-- What point `t` writes back is block `t` of the middle layer's table. -/
theorem flushed1_eq (c : Dev nD) (t : Fin cfg1.N) :
    (dat1 (F := Ideal) V c).flushed 4 t
      = ((cfg1.win 4).blk t).view.read (Elt Ideal) (midLayer (V c main_v26) (V c main_v15) (V c main_v27) (V c main_arg4)) := by
  show (cfg1.win 4).cut (grid1.coords t) ((dat1 V c).after 4 t) = _
  rw [after1_4]
  unfold out1_4
  rw [View.canon_unit_zero hz]
  simp only [View.ld_unit_zero (S := S5000x16) hz, View.ld_unit_zero (S := S5000x1) hz, View.ld_unit_zero (S := S1x16) hz, View.ld_unit_zero (S := S16x8) hz]
  funext j
  have hN : grid1.N = 20 := N_1
  have ht : t.val < 20 := by have h : t.val < grid1.N := t.isLt; omega
  have hj0 : (j 0).val < 5000 := (j 0).isLt
  have hj1 : (j 1).val < 8 := (j 1).isLt
  obtain ⟨-, -, -, -, -, -, -, -, e8, e9⟩ := idx_facts1 t
  have hemb : ((cfg1.win 4).blk t).view.emb j
      = ix2 (⟨t.val * 5000 + (j 0).val, by omega⟩ : Fin 100000) (⟨(j 1).val, hj1⟩ : Fin 8) :=
    funext fun a => Fin.ext (by
      match a with
      | ⟨0, _⟩ => show win1_4.index t (0 : Fin 2) * 5000 + 1 * (j 0).val = t.val * 5000 + (j 0).val; rw [e8]; omega
      | ⟨1, _⟩ => show win1_4.index t (1 : Fin 2) * 8 + 1 * (j 1).val = (j 1).val; rw [e9]; omega)
  have hx : (win1 4).xinj (grid1.coords t) j = ix2 (⟨(j 0).val, hj0⟩ : Fin 5000) (⟨(j 1).val, hj1⟩ : Fin 8) :=
    funext fun a => by
      match a with
      | ⟨0, _⟩ => rfl
      | ⟨1, _⟩ => rfl
  show k1_pay1 (iblk1 V c 0 t) (iblk1 V c 1 t) (iblk1 V c 2 t) (iblk1 V c 3 t) (iblk1 V c 1 t) ((win1 4).xinj (grid1.coords t) j)
    = midLayer (V c main_v26) (V c main_v15) (V c main_v27) (V c main_arg4) (((cfg1.win 4).blk t).view.emb j)
  rw [hx, hemb]
  refine (pay1_apply (iblk1 V c 0 t) (iblk1 V c 1 t) (iblk1 V c 2 t) (iblk1 V c 3 t) (iblk1 V c 1 t) _ _).trans ?_
  refine Eq.trans ?_ (midLayer_apply _ _ _ _ _ _).symm
  refine congrArg₂ (· * ·) (Finset.sum_congr rfl fun k _ => ?_) (iblk1_1_apply V c t _ _ rfl)
  refine congrArg₂ (· * ·) ?_ (iblk1_3_apply V c t k _)
  refine congrArg₂ max ?_ rfl
  exact congrArg₂ (· + ·)
    (congrArg₂ (· * ·) (iblk1_0_apply V c t _ k _ rfl) (iblk1_1_apply V c t _ _ rfl))
    (iblk1_2_apply V c t k)

/-- An index of the table is in point `t`'s block iff each coordinate is in the block's range on its axis. -/
theorem mem_blk1 (t : Fin cfg1.N) (i : S100000x8.Idx) :
    i ∈ ((cfg1.win 4).blk t).view.set ↔ ∀ a : Fin 2, win1_4.index t a * S5000x8.size a ≤ (i a).val
      ∧ (i a).val < win1_4.index t a * S5000x8.size a + S5000x8.size a := by
  show i ∈ ((View.whole main_v28).slice (win1_4.rect t)).set ↔ _
  rw [View.set_slice_whole, Rect.mem_set_unit]
  exact Iff.rfl

/-- Every entry of the table is written back by some point: row `n` by point `n / 5000`. -/
theorem cover1 (i : S100000x8.Idx) :
    ∃ t : Fin cfg1.N, (cfg1.win 4).flush t = true ∧ i ∈ ((cfg1.win 4).blk t).view.set := by
  have hi0 : (i 0).val < 100000 := (i 0).isLt
  have hi1 : (i 1).val < 8 := (i 1).isLt
  have hN : grid1.N = 20 := N_1
  have hlt : (i 0).val / 5000 < grid1.N := by omega
  obtain ⟨-, -, -, -, -, -, -, -, e8, e9⟩ := idx_facts1 ⟨(i 0).val / 5000, hlt⟩
  refine ⟨⟨(i 0).val / 5000, hlt⟩, flush1_4 _, ?_⟩
  rw [mem_blk1]
  intro a
  match a with
  | ⟨0, _⟩ =>
    show win1_4.index ⟨(i 0).val / 5000, hlt⟩ (0 : Fin 2) * 5000 ≤ (i 0).val
      ∧ (i 0).val < win1_4.index ⟨(i 0).val / 5000, hlt⟩ (0 : Fin 2) * 5000 + 5000
    rw [e8]
    show (i 0).val / 5000 * 5000 ≤ (i 0).val ∧ (i 0).val < (i 0).val / 5000 * 5000 + 5000
    omega
  | ⟨1, _⟩ =>
    show win1_4.index ⟨(i 0).val / 5000, hlt⟩ (1 : Fin 2) * 8 ≤ (i 1).val
      ∧ (i 1).val < win1_4.index ⟨(i 0).val / 5000, hlt⟩ (1 : Fin 2) * 8 + 8
    rw [e9]
    omega

/-- After the write-backs the output table is the middle layer of the edge sums: scaled, biased, rectified, multiplied by
    the second weight matrix and scaled again, row by row. -/
theorem final1 (c : Dev nD) :
    (dat1 (F := Ideal) V c).arrAt 4 cfg1.N
      = Cert.Gcn.midLayer (V c main_v26) (V c main_v15) (V c main_v27) (V c main_arg4) :=
  (dat1 (F := Ideal) V c).arrAt_eq_of_cover 4 (midLayer (V c main_v26) (V c main_v15) (V c main_v27) (V c main_arg4))
    (fun t _ => flushed1_eq V c t) cover1

end Cert.Gcn.Region1

end
-- ==== Proof.Region2.lean ====
/-
  The third kernel of the two-layer graph convolution, read off its frame: what its output table holds after the
  region's write-backs, as one function of the three arrays the region finds.

  The kernel runs over 20 grid points; point `t` takes rows `5000 t … 5000 t + 4999` of the second layer's edge sums
  (100000 rows of 8) and of the per-node scale column, and the whole bias row.  Its body scales each row by the node's
  scale, adds the bias, and takes the row's log-softmax in the shifted form: the row's maximum `M` (a fold of `max` from
  `-∞`, which is `⊥` on the extended reals), the shifted entries `h q - M`, the sum of their exponentials, and
  `(h q - M) - log Σ_r exp (h r - M)`.

  The file has three parts.  First the layout operations the body uses to keep a row statistic as a column and spread it
  back over the row (`[a] → [a, 1]`, `[a, 1] → [a, b]`) read at an index.  Then the body's stored value, cut into the
  scaled block and the row-wise log-softmax of a block, each read at `(r, q)`: the maximum over the columns is the row's
  `rowMax`, the sum over the columns is the row's `∑`.  Last, from blocks to the table: each input block entry is the
  array's entry at row `5000 t + r`, so what point `t` writes back is block `t` of `logSoftmaxRows` of the three arrays;
  row `n` lies in the block of point `n / 5000`, so the blocks cover the table and the table ends holding that function.
-/
import proofs.«126378_j16501264351680_2_alg».proof.Proof.Gen.KernelIdeal.Frame
import proofs.«126378_j16501264351680_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn.Region2

open Cert.KernelIdeal Cert.KernelIdeal.Gen Idealize.ShloMosaic Idealize.ShloMosaic.TcCoe
open Idealize.ShloMosaic.ValueIdx
open Idealize.ShloMosaic.Pipeline (Dat)

/-! ## Words and layout operations read at an index -/

/-- The word of negative infinity denotes the least extended real. -/
theorem ofBits_negInf : Ideal.ofBits .f32 0xFF800000#32 = (⊥ : EReal) := by simp [Ideal.ofBits, Ideal.ieee]

/-- A vector of length `a` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic in two pieces -/

/-- The first ten lines of the body: every row of the block scaled by its node's scale, the bias row added. -/
def scaledBlock (x0 : Vec Ideal S5000x8 .f32) (x1 : Vec Ideal S5000x1 .f32) (x2 : Vec Ideal S1x8 .f32) : FVec Ideal S5000x8 .f32 :=
  addf (mulf (shapeCast S5000x8 x0 shapeCasts_S5000x8_S5000x8)
          (broadcastTo S5000x8 (shapeCast S5000x1 x1 shapeCasts_S5000x1_S5000x1) broadcasts_S5000x1_S5000x8))
    (broadcastTo S5000x8 (shapeCast S1x8 (shapeCast S1x8 x2 shapeCasts_S1x8_S1x8) shapeCasts_S1x8_S1x8) broadcasts_S1x8_S5000x8)

/-- Each row's maximum, kept as a column. -/
def rowMaxCol (v : FVec Ideal S5000x8 .f32) : FVec Ideal S5000x1 .f32 :=
  shapeCast S5000x1 (multiReduction .maximumf [1] S5000 v 0xFF800000#32 reduces_S5000x8_S5000 (.inl rfl) rfl) shapeCasts_S5000_S5000x1

/-- The rows less their maxima. -/
def shiftedRows (v : FVec Ideal S5000x8 .f32) : FVec Ideal S5000x8 .f32 :=
  subf v (broadcastTo S5000x8 (rowMaxCol v) broadcasts_S5000x1_S5000x8)

/-- The logarithm of each row's sum of exponentials of the shifted entries, kept as a column. -/
def logSumCol (v : FVec Ideal S5000x8 .f32) : FVec Ideal S5000x1 .f32 :=
  log (shapeCast S5000x1 (multiReduction .add [1] S5000 (exp (shiftedRows v)) 0x00000000#32 reduces_S5000x8_S5000 (.inl rfl) rfl)
    shapeCasts_S5000_S5000x1)

/-- The remaining lines of the body: the shifted rows less the logarithm of their sums of exponentials. -/
def rowLogSoftmax (v : FVec Ideal S5000x8 .f32) : FVec Ideal S5000x8 .f32 :=
  subf (shiftedRows v) (broadcastTo S5000x8 (logSumCol v) broadcasts_S5000x1_S5000x8)

/-- The body's stored value is the second piece of the first. -/
theorem pay_split (x0 : Vec Ideal S5000x8 .f32) (x1 : Vec Ideal S5000x1 .f32) (x2 : Vec Ideal S1x8 .f32) :
    k2_pay1 x0 x1 x2 = rowLogSoftmax (scaledBlock x0 x1 x2) := rfl

/-! ## The pieces read at an index -/

/-- The scaled block at row `r`, column `k`. -/
theorem scaledBlock_apply (x0 : Vec Ideal S5000x8 .f32) (x1 : Vec Ideal S5000x1 .f32) (x2 : Vec Ideal S1x8 .f32)
    (r : Fin 5000) (k : Fin 8) :
    scaledBlock x0 x1 x2 (ix2 r k) = x0 (ix2 r k) * x1 (ix2 r (0 : Fin 1)) + x2 (ix2 (0 : Fin 1) k) := by
  unfold scaledBlock
  rw [shapeCast_self, shapeCast_self, shapeCast_self, shapeCast_self, addf_apply, mulf_apply,
    broadcastTo_a1_ab_apply, broadcastTo_1b_ab_apply]

/-- The index of the block over row `r` with column `k` put back is `(r, k)`. -/
theorem lift_row (r : Fin 5000) (k : Fin 8) : reduces_S5000x8_S5000.lift (ix1 r) k = ix2 r k :=
  funext fun a => Fin.ext (by match a with | ⟨0, _⟩ => rfl | ⟨1, _⟩ => rfl)

/-- A maximum over the columns, from the word of negative infinity, is the row's maximum. -/
theorem rowMax_read (v : FVec Ideal S5000x8 .f32) (hφ : FKind.Formats .f32)
    (hacc : (0xFF800000#32 : BitVec FTy.f32.bits) = FKind.maximumf.neutral .f32 hφ) (r : Fin 5000) :
    multiReduction .maximumf [1] S5000 v 0xFF800000#32 reduces_S5000x8_S5000 hφ hacc (ix1 r) = rowMax (fun k => v (ix2 r k)) := by
  refine (Ideal.multiReduction_maximumf_single v _ reduces_S5000x8_S5000 hφ hacc (ix1 r)).trans ?_
  have hl : (v ∘ reduces_S5000x8_S5000.lift (ix1 r)) = fun k : Fin 8 => v (ix2 r k) := funext fun k => congrArg v (lift_row r k)
  show (Finset.univ : Finset (Fin 8)).fold max (Ideal.ofBits .f32 0xFF800000#32) (v ∘ reduces_S5000x8_S5000.lift (ix1 r)) = _
  rw [ofBits_negInf, hl]
  rfl

/-- A sum over the columns is the row's sum. -/
theorem rowSum_read (v : FVec Ideal S5000x8 .f32) (hφ : FKind.Formats .f32)
    (hacc : (0x00000000#32 : BitVec FTy.f32.bits) = FKind.add.neutral .f32 hφ) (r : Fin 5000) :
    multiReduction .add [1] S5000 v 0x00000000#32 reduces_S5000x8_S5000 hφ hacc (ix1 r) = ∑ k : Fin 8, v (ix2 r k) := by
  refine (Ideal.multiReduction_add_single v _ reduces_S5000x8_S5000 hφ hacc (ix1 r)).trans ?_
  show ∑ k : Fin 8, v (reduces_S5000x8_S5000.lift (ix1 r) k) = _
  exact Finset.sum_congr rfl fun k _ => congrArg v (lift_row r k)

theorem rowMaxCol_apply (v : FVec Ideal S5000x8 .f32) (r : Fin 5000) (u : Fin 1) :
    rowMaxCol v (ix2 r u) = rowMax (fun k => v (ix2 r k)) := by
  unfold rowMaxCol
  rw [shapeCast_a_a1_apply]
  exact rowMax_read v _ _ r

theorem shiftedRows_apply (v : FVec Ideal S5000x8 .f32) (r : Fin 5000) (k : Fin 8) :
    shiftedRows v (ix2 r k) = v (ix2 r k) - rowMax (fun k => v (ix2 r k)) := by
  unfold shiftedRows
  rw [subf_apply, broadcastTo_a1_ab_apply, rowMaxCol_apply]

theorem logSumCol_apply (v : FVec Ideal S5000x8 .f32) (r : Fin 5000) (u : Fin 1) :
    logSumCol v (ix2 r u) = Ideal.log (∑ k : Fin 8, Ideal.exp (v (ix2 r k) - rowMax (fun k => v (ix2 r k)))) := by
  unfold logSumCol
  show Ideal.log (shapeCast S5000x1 _ shapeCasts_S5000_S5000x1 (ix2 r u)) = _
  rw [shapeCast_a_a1_apply]
  refine congrArg Ideal.log ((rowSum_read _ _ _ r).trans (Finset.sum_congr rfl fun k _ => ?_))
  show Ideal.exp (shiftedRows v (ix2 r k)) = _
  rw [shiftedRows_apply]

/-- The second piece at `(r, q)` is the log-softmax of row `r` of the block, at `q`. -/
theorem rowLogSoftmax_apply (v : FVec Ideal S5000x8 .f32) (r : Fin 5000) (q : Fin 8) :
    rowLogSoftmax v (ix2 r q) = logSoftmax (fun k => v (ix2 r k)) q := by
  unfold rowLogSoftmax logSoftmax
  rw [subf_apply, broadcastTo_a1_ab_apply, shiftedRows_apply, logSumCol_apply]

/-- THE BODY'S STORED VALUE at `(r, q)`: the log-softmax, at `q`, of row `r` scaled by its node's scale plus the bias. -/
theorem pay_apply (x0 : Vec Ideal S5000x8 .f32) (x1 : Vec Ideal S5000x1 .f32) (x2 : Vec Ideal S1x8 .f32)
    (r : Fin 5000) (q : Fin 8) :
    k2_pay1 x0 x1 x2 (ix2 r q)
      = logSoftmax (fun k => x0 (ix2 r k) * x1 (ix2 r (0 : Fin 1)) + x2 (ix2 (0 : Fin 1) k)) q := by
  rw [pay_split, rowLogSoftmax_apply]
  exact congrArg (fun h => logSoftmax h q) (funext fun k => scaledBlock_apply x0 x1 x2 r k)

/-! ## From blocks to the array -/

theorem hz : (![0, 0] : Fin 2 → Nat) = fun _ => 0 := funext fun a => by fin_cases a <;> rfl

/-- The printed index maps, decided over the grid: point `t` takes row block `t` of the two row-blocked inputs and of the
    output, and the whole bias row. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 20 := lt_of_lt_of_eq t.isLt N_2

/-- Row `r` of row block `t`, as a row of the whole table. -/
def rowOf (t : Fin cfg2.N) (r : Fin 5000) : Fin 100000 :=
  ⟨t.val * 5000 + r.val, by have := point_lt t; have := r.isLt; omega⟩

/-- Point `t`'s block of the edge sums is rows `5000 t … 5000 t + 4999` of the table. -/
theorem blk0_read (V : (c : Dev nD) → (b : Ref sig .tc) → Buf (Elt Ideal) ((c : Thread nD τ).loc b)) (c : Dev nD)
    (t : Fin cfg2.N) (r : Fin 5000) (k : Fin 8) :
    (iblk2 (F := Ideal) V c 0 t : Vec Ideal S5000x8 .f32) (ix2 r k) = (V c main_v38 : S100000x8.Idx → EReal) (ix2 (rowOf t r) k) := by
  obtain ⟨e0, e1, -⟩ := idx_facts t
  unfold iblk2
  rw [View.read_apply]
  show V c main_v38 (((cfg2.win 0).blk t).view.emb (ix2 r k)) = V c main_v38 (ix2 (rowOf t r) k)
  refine congrArg (V c main_v38) (funext fun a => Fin.ext ?_)
  match a with
  | ⟨0, _⟩ => show win2_0.index t (0 : Fin 2) * 5000 + 1 * r.val = t.val * 5000 + r.val; rw [e0]; omega
  | ⟨1, _⟩ => show win2_0.index t (1 : Fin 2) * 8 + 1 * k.val = k.val; rw [e1]; omega

/-- Point `t`'s block of the scale column is the same rows of the column. -/
theorem blk1_read (V : (c : Dev nD) → (b : Ref sig .tc) → Buf (Elt Ideal) ((c : Thread nD τ).loc b)) (c : Dev nD)
    (t : Fin cfg2.N) (r : Fin 5000) :
    (iblk2 (F := Ideal) V c 1 t : Vec Ideal S5000x1 .f32) (ix2 r (0 : Fin 1))
      = (V c main_v15 : S100000x1.Idx → EReal) (ix2 (rowOf t r) (0 : Fin 1)) := by
  obtain ⟨-, -, e0, e1, -⟩ := idx_facts t
  unfold iblk2
  rw [View.read_apply]
  show V c main_v15 (((cfg2.win 1).blk t).view.emb (ix2 r (0 : Fin 1))) = V c main_v15 (ix2 (rowOf t r) (0 : Fin 1))
  refine congrArg (V c main_v15) (funext fun a => Fin.ext ?_)
  match a with
  | ⟨0, _⟩ => show win2_1.index t (0 : Fin 2) * 5000 + 1 * r.val = t.val * 5000 + r.val; rw [e0]; omega
  | ⟨1, _⟩ => show win2_1.index t (1 : Fin 2) * 1 + 1 * 0 = 0; rw [e1]

/-- Every point's block of the bias row is the whole row. -/
theorem blk2_read (V : (c : Dev nD) → (b : Ref sig .tc) → Buf (Elt Ideal) ((c : Thread nD τ).loc b)) (c : Dev nD)
    (t : Fin cfg2.N) (k : Fin 8) :
    (iblk2 (F := Ideal) V c 2 t : Vec Ideal S1x8 .f32) (ix2 (0 : Fin 1) k) = (V c main_v39 : S1x8.Idx → EReal) (ix2 (0 : Fin 1) k) := by
  obtain ⟨-, -, -, -, e0, e1, -⟩ := idx_facts t
  unfold iblk2
  rw [View.read_apply]
  show V c main_v39 (((cfg2.win 2).blk t).view.emb (ix2 (0 : Fin 1) k)) = V c main_v39 (ix2 (0 : Fin 1) k)
  refine congrArg (V c main_v39) (funext fun a => Fin.ext ?_)
  match a with
  | ⟨0, _⟩ => show win2_2.index t (0 : Fin 2) * 1 + 1 * 0 = 0; rw [e0]
  | ⟨1, _⟩ => show win2_2.index t (1 : Fin 2) * 8 + 1 * k.val = k.val; rw [e1]; omega

/-- The output block's entry `(r, q)` at point `t` sits at row `rowOf t r`, column `q`, of the output table. -/
theorem out_emb (t : Fin cfg2.N) (r : Fin 5000) (q : Fin 8) :
    ((cfg2.win 3).blk t).view.emb (ix2 r q) = (ix2 (rowOf t r) q : S100000x8.Idx) := by
  obtain ⟨-, -, -, -, -, -, e0, e1⟩ := idx_facts t
  refine funext fun a => Fin.ext ?_
  match a with
  | ⟨0, _⟩ => show win2_3.index t (0 : Fin 2) * 5000 + 1 * r.val = t.val * 5000 + r.val; rw [e0]; omega
  | ⟨1, _⟩ => show win2_3.index t (1 : Fin 2) * 8 + 1 * q.val = q.val; rw [e1]; omega

/-- WHAT POINT `t` WRITES BACK is block `t` of the row-wise log-softmax of the scaled, biased edge sums. -/
theorem flushed_eq (V : (c : Dev nD) → (b : Ref sig .tc) → Buf (Elt Ideal) ((c : Thread nD τ).loc b)) (c : Dev nD)
    (t : Fin cfg2.N) :
    (dat2 (F := Ideal) V c).flushed 3 t
      = ((cfg2.win 3).blk t).view.read (Elt Ideal) (logSoftmaxRows (V c main_v38) (V c main_v15) (V c main_v39)) := by
  show (cfg2.win 3).cut (grid2.coords t) ((dat2 V c).after 3 t) = _
  rw [after2_3]
  unfold out2_3
  rw [View.canon_unit_zero hz]
  simp only [View.ld_unit_zero (S := S5000x8) hz, View.ld_unit_zero (S := S5000x1) hz, View.ld_unit_zero (S := S1x8) hz]
  refine funext fun (y : S5000x8.Idx) => ?_
  obtain ⟨r, q, rfl⟩ : ∃ (r : Fin 5000) (q : Fin 8), y = ix2 r q := ⟨y 0, y 1, eq_ix2 y⟩
  rw [View.read_apply]
  show k2_pay1 (iblk2 V c 0 t) (iblk2 V c 1 t) (iblk2 V c 2 t) (ix2 r q)
    = logSoftmaxRows (V c main_v38) (V c main_v15) (V c main_v39) (((cfg2.win 3).blk t).view.emb (ix2 r q))
  rw [out_emb t r q, logSoftmaxRows_apply]
  refine (pay_apply (iblk2 V c 0 t) (iblk2 V c 1 t) (iblk2 V c 2 t) r q).trans ?_
  refine congrArg (fun h => logSoftmax h q) (funext fun k => ?_)
  rw [blk0_read V c t r k, blk1_read V c t r, blk2_read V c t k]

/-- An index of the output table is in point `t`'s block iff each coordinate is in the block's range on its axis. -/
theorem mem_blk (t : Fin cfg2.N) (i : S100000x8.Idx) :
    i ∈ ((cfg2.win 3).blk t).view.set
      ↔ ∀ a : Fin 2, win2_3.index t a * S5000x8.size a ≤ (i a).val ∧ (i a).val < win2_3.index t a * S5000x8.size a + S5000x8.size a := by
  show i ∈ ((View.whole main_v40).slice (win2_3.rect t)).set ↔ _
  rw [View.set_slice_whole, Rect.mem_set_unit]
  exact Iff.rfl

/-- Every entry of the output table is written by some point: row `n` by point `n / 5000`. -/
theorem cover (i : S100000x8.Idx) :
    ∃ t : Fin cfg2.N, (cfg2.win 3).flush t = true ∧ i ∈ ((cfg2.win 3).blk t).view.set := by
  have hi0 : (i 0).val < 100000 := (i 0).isLt
  have hi1 : (i 1).val < 8 := (i 1).isLt
  have hN : cfg2.N = 20 := N_2
  have ht : (i 0).val / 5000 < cfg2.N := by rw [hN]; omega
  obtain ⟨-, -, -, -, -, -, e0, e1⟩ := idx_facts ⟨(i 0).val / 5000, ht⟩
  refine ⟨⟨(i 0).val / 5000, ht⟩, flush2_3 _, ?_⟩
  rw [mem_blk]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_3.index ⟨(i 0).val / 5000, ht⟩ (1 : Fin 2) * 8 ≤ (i 1).val
      ∧ (i 1).val < win2_3.index ⟨(i 0).val / 5000, ht⟩ (1 : Fin 2) * 8 + 8
    rw [e1]
    omega

/-- THE OUTPUT TABLE after the region's write-backs: the row-wise log-softmax of the edge sums scaled by the nodes' scales
    plus the bias, as the region finds those three arrays. -/
theorem final2 (V : (c : Dev nD) → (b : Ref sig .tc) → Buf (Elt Ideal) ((c : Thread nD τ).loc b)) (c : Dev nD) :
    (dat2 (F := Ideal) V c).arrAt 3 cfg2.N = Cert.Gcn.logSoftmaxRows (V c main_v38) (V c main_v15) (V c main_v39) :=
  (dat2 V c).arrAt_eq_of_cover 3 (logSoftmaxRows (V c main_v38) (V c main_v15) (V c main_v39))
    (fun t _ => flushed_eq V c t) cover

end Cert.Gcn.Region2

end
-- ==== Proof.KernelValue.lean ====
/-
  The kernel program's result as ONE function of its six arguments.

  The program is five stretches of host operations around three kernels. Walking its buffers from the launch to the
  return: the first stretches leave the edge rows `src`, `dst` and the scale column `d`, which no later operation
  writes; the first kernel leaves `scaledFeatures X W₁ d`; the next stretch sums its rows along the edges and lays the
  first bias out as a row; the second kernel leaves `midLayer` of those; the next stretch sums again along the edges and
  lays the second bias out as a row; the third kernel leaves the rows' log-softmax. A kernel's input tables pass through
  it unchanged, and a buffer that is no table of a kernel is untouched by it. Composing the steps gives the result.
-/
import proofs.«126378_j16501264351680_2_alg».proof.Proof.Gen.KernelIdeal.Frame
import proofs.«126378_j16501264351680_2_alg».proof.Proof.HostTerms
import proofs.«126378_j16501264351680_2_alg».proof.Proof.HostReads
import proofs.«126378_j16501264351680_2_alg».proof.Proof.Region0
import proofs.«126378_j16501264351680_2_alg».proof.Proof.Region1
import proofs.«126378_j16501264351680_2_alg».proof.Proof.Region2

noncomputable section

namespace Cert.Gcn.KernelValue

open Cert.KernelIdeal Cert.KernelIdeal.Gen
open Idealize.ShloMosaic Idealize.ShloMosaic.TcCoe Idealize.SL.Sem Idealize.ShloMosaic.StableHlo
open Cert.Gcn.HostReads

variable (m : (ℓ : Loc nD τ sig) → Buf (Elt Ideal) ℓ) (ρ : Dev nD → PrngReg) (c : Dev nD)

/-! ## What the first kernel finds, and leaves -/

theorem W3_v15 : W3 (F := Ideal) m ρ c (Proc.devRef .tc main_v15) = K.dinvCol (F := Ideal) (m ((c.tc : Thread nD τ).loc main_arg1)) :=
  entry0_v15 (W0 m ρ c)
theorem W3_v3 : W3 (F := Ideal) m ρ c (Proc.devRef .tc main_v3) = K.srcV (m ((c.tc : Thread nD τ).loc main_arg1)) :=
  entry0_v3 (W0 m ρ c)
theorem W3_v6 : W3 (F := Ideal) m ρ c (Proc.devRef .tc main_v6) = K.dstV (m ((c.tc : Thread nD τ).loc main_arg1)) :=
  entry0_v6 (W0 m ρ c)
theorem W3_arg0 : W3 (F := Ideal) m ρ c (Proc.devRef .tc main_arg0) = m ((c.tc : Thread nD τ).loc main_arg0) :=
  entry0_arg0 (W0 m ρ c)
theorem W3_arg2 : W3 (F := Ideal) m ρ c (Proc.devRef .tc main_arg2) = m ((c.tc : Thread nD τ).loc main_arg2) :=
  entry0_arg2 (W0 m ρ c)
theorem W3_arg3 : W3 (F := Ideal) m ρ c (Proc.devRef .tc main_arg3) = m ((c.tc : Thread nD τ).loc main_arg3) :=
  entry0_arg3 (W0 m ρ c)
theorem W3_arg4 : W3 (F := Ideal) m ρ c (Proc.devRef .tc main_arg4) = m ((c.tc : Thread nD τ).loc main_arg4) :=
  entry0_arg4 (W0 m ρ c)
theorem W3_arg5 : W3 (F := Ideal) m ρ c (Proc.devRef .tc main_arg5) = m ((c.tc : Thread nD τ).loc main_arg5) :=
  entry0_arg5 (W0 m ρ c)

/-- The first kernel's output: the product of the features with the first weight matrix, rows scaled. -/
theorem W4_v16 : W4 (F := Ideal) m ρ c (Proc.devRef .tc main_v16)
    = Cert.Gcn.scaledFeatures (m ((c.tc : Thread nD τ).loc main_arg0)) (m ((c.tc : Thread nD τ).loc main_arg2))
        (K.dinvCol (F := Ideal) (m ((c.tc : Thread nD τ).loc main_arg1))) := by
  refine (W4_arr m ρ c 3).trans ((Cert.Gcn.Region0.final0 (V3 m ρ) c).trans ?_)
  show Cert.Gcn.scaledFeatures (W3 m ρ c (Proc.devRef .tc main_arg0)) (W3 m ρ c (Proc.devRef .tc main_arg2))
    (W3 m ρ c (Proc.devRef .tc main_v15)) = _
  rw [W3_arg0, W3_arg2, W3_v15]

/-- The scale column passes through the first kernel (an input of it). -/
theorem W4_v15 : W4 (F := Ideal) m ρ c (Proc.devRef .tc main_v15) = K.dinvCol (F := Ideal) (m ((c.tc : Thread nD τ).loc main_arg1)) :=
  ((W4_arr m ρ c 2).trans (((dat0 (V3 m ρ) c).arrAt_in 2 rfl _).trans (A_eq0 (V3 m ρ) c 2))).trans (W3_v15 m ρ c)
theorem W4_v3 : W4 (F := Ideal) m ρ c (Proc.devRef .tc main_v3) = K.srcV (m ((c.tc : Thread nD τ).loc main_arg1)) :=
  (W4_of_ne m ρ c main_v3 (by decide)).trans (W3_v3 m ρ c)
theorem W4_v6 : W4 (F := Ideal) m ρ c (Proc.devRef .tc main_v6) = K.dstV (m ((c.tc : Thread nD τ).loc main_arg1)) :=
  (W4_of_ne m ρ c main_v6 (by decide)).trans (W3_v6 m ρ c)
theorem W4_arg3 : W4 (F := Ideal) m ρ c (Proc.devRef .tc main_arg3) = m ((c.tc : Thread nD τ).loc main_arg3) :=
  (W4_of_ne m ρ c main_arg3 (by decide)).trans (W3_arg3 m ρ c)
theorem W4_arg4 : W4 (F := Ideal) m ρ c (Proc.devRef .tc main_arg4) = m ((c.tc : Thread nD τ).loc main_arg4) :=
  (W4_of_ne m ρ c main_arg4 (by decide)).trans (W3_arg4 m ρ c)
theorem W4_arg5 : W4 (F := Ideal) m ρ c (Proc.devRef .tc main_arg5) = m ((c.tc : Thread nD τ).loc main_arg5) :=
  (W4_of_ne m ρ c main_arg5 (by decide)).trans (W3_arg5 m ρ c)

/-! ## What the second kernel finds, and leaves -/

theorem W5_v26 : W5 (F := Ideal) m ρ c (Proc.devRef .tc main_v26)
    = K.agg16 (F := Ideal) (m ((c.tc : Thread nD τ).loc main_arg1))
        (Cert.Gcn.scaledFeatures (m ((c.tc : Thread nD τ).loc main_arg0)) (m ((c.tc : Thread nD τ).loc main_arg2))
          (K.dinvCol (F := Ideal) (m ((c.tc : Thread nD τ).loc main_arg1)))) :=
  (v26_of (W4 m ρ c) _ (W4_v3 m ρ c) (W4_v6 m ρ c)).trans (congrArg (K.agg16 (F := Ideal) _) (W4_v16 m ρ c))
theorem W5_v27 : W5 (F := Ideal) m ρ c (Proc.devRef .tc main_v27) = K.rowB1 (F := Ideal) (m ((c.tc : Thread nD τ).loc main_arg3)) :=
  (v27_of (W4 m ρ c)).trans (congrArg (K.rowB1 (F := Ideal)) (W4_arg3 m ρ c))
theorem W5_v15 : W5 (F := Ideal) m ρ c (Proc.devRef .tc main_v15) = K.dinvCol (F := Ideal) (m ((c.tc : Thread nD τ).loc main_arg1)) :=
  (keep1_v15 (W4 m ρ c)).trans (W4_v15 m ρ c)
theorem W5_v3 : W5 (F := Ideal) m ρ c (Proc.devRef .tc main_v3) = K.srcV (m ((c.tc : Thread nD τ).loc main_arg1)) :=
  (keep1_v3 (W4 m ρ c)).trans (W4_v3 m ρ c)
theorem W5_v6 : W5 (F := Ideal) m ρ c (Proc.devRef .tc main_v6) = K.dstV (m ((c.tc : Thread nD τ).loc main_arg1)) :=
  (keep1_v6 (W4 m ρ c)).trans (W4_v6 m ρ c)
theorem W5_arg4 : W5 (F := Ideal) m ρ c (Proc.devRef .tc main_arg4) = m ((c.tc : Thread nD τ).loc main_arg4) :=
  (keep1_arg4 (W4 m ρ c)).trans (W4_arg4 m ρ c)
theorem W5_arg5 : W5 (F := Ideal) m ρ c (Proc.devRef .tc main_arg5) = m ((c.tc : Thread nD τ).loc main_arg5) :=
  (keep1_arg5 (W4 m ρ c)).trans (W4_arg5 m ρ c)

/-- The second kernel's output: the middle layer of the first edge sums. -/
theorem W6_v28 : W6 (F := Ideal) m ρ c (Proc.devRef .tc main_v28)
    = Cert.Gcn.midLayer
        (K.agg16 (F := Ideal) (m ((c.tc : Thread nD τ).loc main_arg1))
          (Cert.Gcn.scaledFeatures (m ((c.tc : Thread nD τ).loc main_arg0)) (m ((c.tc : Thread nD τ).loc main_arg2))
            (K.dinvCol (F := Ideal) (m ((c.tc : Thread nD τ).loc main_arg1)))))
        (K.dinvCol (F := Ideal) (m ((c.tc : Thread nD τ).loc main_arg1))) (K.rowB1 (F := Ideal) (m ((c.tc : Thread nD τ).loc main_arg3)))
        (m ((c.tc : Thread nD τ).loc main_arg4)) := by
  refine (W6_arr m ρ c 4).trans ((Cert.Gcn.Region1.final1 (V5 m ρ) c).trans ?_)
  show Cert.Gcn.midLayer (W5 m ρ c (Proc.devRef .tc main_v26)) (W5 m ρ c (Proc.devRef .tc main_v15))
    (W5 m ρ c (Proc.devRef .tc main_v27)) (W5 m ρ c (Proc.devRef .tc main_arg4)) = _
  rw [W5_v26, W5_v15, W5_v27, W5_arg4]

theorem W6_v15 : W6 (F := Ideal) m ρ c (Proc.devRef .tc main_v15) = K.dinvCol (F := Ideal) (m ((c.tc : Thread nD τ).loc main_arg1)) :=
  ((W6_arr m ρ c 1).trans (((dat1 (V5 m ρ) c).arrAt_in 1 rfl _).trans (A_eq1 (V5 m ρ) c 1))).trans (W5_v15 m ρ c)
theorem W6_v3 : W6 (F := Ideal) m ρ c (Proc.devRef .tc main_v3) = K.srcV (m ((c.tc : Thread nD τ).loc main_arg1)) :=
  (W6_of_ne m ρ c main_v3 (by decide)).trans (W5_v3 m ρ c)
theorem W6_v6 : W6 (F := Ideal) m ρ c (Proc.devRef .tc main_v6) = K.dstV (m ((c.tc : Thread nD τ).loc main_arg1)) :=
  (W6_of_ne m ρ c main_v6 (by decide)).trans (W5_v6 m ρ c)
theorem W6_arg5 : W6 (F := Ideal) m ρ c (Proc.devRef .tc main_arg5) = m ((c.tc : Thread nD τ).loc main_arg5) :=
  (W6_of_ne m ρ c main_arg5 (by decide)).trans (W5_arg5 m ρ c)

/-! ## What the third kernel finds, and leaves -/

theorem W7_v38 : W7 (F := Ideal) m ρ c (Proc.devRef .tc main_v38)
    = K.agg8 (F := Ideal) (m ((c.tc : Thread nD τ).loc main_arg1))
        (Cert.Gcn.midLayer
          (K.agg16 (F := Ideal) (m ((c.tc : Thread nD τ).loc main_arg1))
            (Cert.Gcn.scaledFeatures (m ((c.tc : Thread nD τ).loc main_arg0)) (m ((c.tc : Thread nD τ).loc main_arg2))
              (K.dinvCol (F := Ideal) (m ((c.tc : Thread nD τ).loc main_arg1)))))
          (K.dinvCol (F := Ideal) (m ((c.tc : Thread nD τ).loc main_arg1))) (K.rowB1 (F := Ideal) (m ((c.tc : Thread nD τ).loc main_arg3)))
          (m ((c.tc : Thread nD τ).loc main_arg4))) :=
  (v38_of (W6 m ρ c) _ (W6_v3 m ρ c) (W6_v6 m ρ c)).trans (congrArg (K.agg8 (F := Ideal) _) (W6_v28 m ρ c))
theorem W7_v39 : W7 (F := Ideal) m ρ c (Proc.devRef .tc main_v39) = K.rowB2 (F := Ideal) (m ((c.tc : Thread nD τ).loc main_arg5)) :=
  (v39_of (W6 m ρ c)).trans (congrArg (K.rowB2 (F := Ideal)) (W6_arg5 m ρ c))
theorem W7_v15 : W7 (F := Ideal) m ρ c (Proc.devRef .tc main_v15) = K.dinvCol (F := Ideal) (m ((c.tc : Thread nD τ).loc main_arg1)) :=
  (keep2_v15 (W6 m ρ c)).trans (W6_v15 m ρ c)

/-- The program's result: the third kernel's output table, as one function of the six arguments. -/
theorem kernel_value :
    W8 (F := Ideal) m ρ c (Proc.devRef .tc main_v40)
      = Cert.Gcn.K.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  refine (W8_arr m ρ c 3).trans ((Cert.Gcn.Region2.final2 (V7 m ρ) c).trans ?_)
  show Cert.Gcn.logSoftmaxRows (W7 m ρ c (Proc.devRef .tc main_v38)) (W7 m ρ c (Proc.devRef .tc main_v15))
    (W7 m ρ c (Proc.devRef .tc main_v39)) = _
  rw [W7_v38, W7_v15, W7_v39]
  rfl

end Cert.Gcn.KernelValue

end
-- ==== Proof.BridgeTerms.lean ====
/-
  The two programs' host sides are the same terms.  The kernel program's edge columns, per-node scale and
  gather-then-segment-sum (written over its own shape and dimension records) are, term by term, the stages of the
  reference program that compute the same things from the same edge list: the records' lists and the shapes'
  extents are equal literals, so each identification holds by unfolding the definitions, for any float values.
-/
import proofs.«126378_j16501264351680_2_alg».proof.Proof.HostTerms
import proofs.«126378_j16501264351680_2_alg».proof.Proof.RefRead

noncomputable section

namespace Cert.Gcn.BridgeTerms

open Idealize.ShloMosaic Cert.ReferenceIdeal.ReadP

variable {F : FTy → Type} [FloatOps F]

/-- The column of destination rows is the reference's. -/
theorem col_dst (ei : IVec Cert.KernelIdeal.S2x3200000 32) :
    Cert.Gcn.K.col (Cert.Gcn.K.dstV ei) = val_main_v42 (F := F) ei := rfl

/-- The column of wrapped source rows is the reference's. -/
theorem col_src (ei : IVec Cert.KernelIdeal.S2x3200000 32) :
    Cert.Gcn.K.col (Cert.Gcn.K.wrap (Cert.Gcn.K.srcV ei)) = val_main_v36 (F := F) ei := rfl

/-- The per-node scale is the reference's. -/
theorem dinv_eq (ei : IVec Cert.KernelIdeal.S2x3200000 32) :
    Cert.Gcn.K.dinv (F := F) ei = val_main_v15 (F := F) ei := rfl

/-- Gathering a 16-wide table at the sources and summing into the destinations, over the reference's records,
    zeros and columns. -/
theorem agg16_eq (ei : IVec Cert.KernelIdeal.S2x3200000 32) (H : FVec F Cert.KernelIdeal.S100000x16 .f32) :
    Cert.Gcn.K.agg16 (F := F) ei H
      = Host.scatterAdd Cert.ReferenceIdeal.scatter_S100000x16_S3300000x1_S3300000x16_1_0_0_1 (val_main_v41 (F := F))
          (val_main_v42 (F := F) ei)
          (Host.gather Cert.ReferenceIdeal.gather_S100000x16_S3300000x1_S3300000x16_1_0_n_n_0_1_116 H (val_main_v36 (F := F) ei)) :=
  rfl

/-- The same for an 8-wide table. -/
theorem agg8_eq (ei : IVec Cert.KernelIdeal.S2x3200000 32) (H : FVec F Cert.KernelIdeal.S100000x8 .f32) :
    Cert.Gcn.K.agg8 (F := F) ei H
      = Host.scatterAdd Cert.ReferenceIdeal.scatter_S100000x8_S3300000x1_S3300000x8_1_0_0_1 (val_main_v89 (F := F))
          (val_main_v42 (F := F) ei)
          (Host.gather Cert.ReferenceIdeal.gather_S100000x8_S3300000x1_S3300000x8_1_0_n_n_0_1_18 H (val_main_v36 (F := F) ei)) :=
  rfl

end Cert.Gcn.BridgeTerms

end
-- ==== Proof.LibRowGatherScatter.lean ====
/-
  Reading, at an index, the two indexed operations a segment sum is built from: the row gather `x[col]` (an operand
  `[N, C]` or `[N]` read at a column `[E, 1]` of start indices) and the accumulating row scatter
  `segment_sum(msgs, row)` (updates `[E, C]` added into an operand `[N, C]` at a column `[E, 1]` of row indices).
  The gather clamps its start index into `[0, N − 1]`; the scatter reads it signed and drops a row that is out of range.
  Every statement is for arbitrary dimension numbers whose lists are the ones those two operations carry.
-/
import Idealize.ShloMosaic.Lib.ValueIdx
import Idealize.ShloMosaic.PureOps.Ideal.Laws

noncomputable section

open scoped BigOperators

namespace Idealize.ShloMosaic.RowGatherScatter

open Idealize.ShloMosaic Idealize.ShloMosaic.ValueIdx

/-! ## The row gather at an index -/

section Gather
variable {α : Type}

/-- THE ROW GATHER READ AT `(e, c)`: gathering whole rows of an `[N, C]` operand at a column `[E, 1]` of start
    indices gives, at row `e` and column `c`, the operand's element in column `c` of the row named by start index
    `e`, that index read as a signed integer and clamped into `[0, N − 1]`. -/
theorem gather_rows_apply {N E C w : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 ⟨min (idx (ix2 e 0)).toInt.toNat (N - 1), by omega⟩ c) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    -- the row axis: collapsed, not batching, named by the start index map
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (p : Nat) (hp : p < 1), GatherDims.siIdx (⟨[1], [0], [], [], [0], 1, ![1, C], wf⟩ :
        GatherDims ⟨2, ![N, C]⟩ ⟨2, ![E, 1]⟩ ⟨2, ![E, C]⟩) (ix2 e c) ⟨p, hp⟩ = ix2 e 0 := by
      intro p hp
      obtain rfl : p = 0 := by omega
      funext b; refine Fin.ext ?_
      match b with
      | ⟨0, _⟩ => rfl
      | ⟨1, _⟩ => rfl
    rw [hsi]
    rfl
  | ⟨1, _⟩ =>
    -- the column axis: an offset axis, its start 0, its offset the result's column
    show GatherDims.start _ (ix2 e c) idx 1 + GatherDims.batchCoord _ (ix2 e c) 1 + GatherDims.offCoord _ (ix2 e c) 1 = c.val
    rw [GatherDims.batchCoord_eq_zero _ _ _ List.not_mem_nil]
    have hs : GatherDims.start (⟨[1], [0], [], [], [0], 1, ![1, C], wf⟩ :
        GatherDims ⟨2, ![N, C]⟩ ⟨2, ![E, 1]⟩ ⟨2, ![E, C]⟩) (ix2 e c) idx 1 = 0 := by
      unfold GatherDims.start; rw [dif_neg (show (1 : Fin 2) ∉ [(0 : Fin 2)] by decide)]
    rw [hs]
    simp only [Nat.add_zero, Nat.zero_add]
    rfl

/-- THE VECTOR GATHER READ AT `e`: gathering elements of an `[N]` operand at a column `[E, 1]` of start indices gives,
    at `e`, the operand's element at start index `e`, read as a signed integer and clamped into `[0, N − 1]`. -/
theorem gather_vec_apply {N E w : Nat} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e) = x (ix1 ⟨min (idx (ix2 e 0)).toInt.toNat (N - 1), by omega⟩) := by
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (p : Nat) (hp : p < 1), GatherDims.siIdx (⟨[], [0], [], [], [0], 1, ![1], wf⟩ :
        GatherDims ⟨1, ![N]⟩ ⟨2, ![E, 1]⟩ ⟨1, ![E]⟩) (ix1 e) ⟨p, hp⟩ = ix2 e 0 := by
      intro p hp
      obtain rfl : p = 0 := by omega
      funext b; refine Fin.ext ?_
      match b with
      | ⟨0, _⟩ => rfl
      | ⟨1, _⟩ => rfl
    rw [hsi]
    rfl

end Gather

/-! ## The accumulating row scatter at an index -/

section Scatter

/-- The row scatter's dimension numbers — updates `[E, C]` whose column axis is the window, the operand's row axis
    inserted and named by the one scatter index component — with their conditions an arbitrary proof. -/
abbrev rowsDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- On the row axis the window starts at the update's scatter index, read signed. -/
theorem rows_start0 (idx : IVec ⟨2, ![E, 1]⟩ w) (e : Fin E) (c : Fin C) :
    (rowsDims N E C wf).start (ix2 e c) idx 0 = (idx (ix2 e 0)).toInt := by
  unfold ScatterDims.start
  rw [dif_pos (List.mem_singleton.mpr rfl)]
  have hsi : ∀ (p : Nat) (hp : p < 1), (rowsDims N E C wf).siIdx (ix2 e c) ⟨p, hp⟩ = ix2 e 0 := by
    intro p hp
    obtain rfl : p = 0 := by omega
    funext b; refine Fin.ext ?_
    match b with
    | ⟨0, _⟩ => rfl
    | ⟨1, _⟩ => rfl
  rw [hsi]

/-- On the column axis the window starts at 0. -/
theorem rows_start1 (idx : IVec ⟨2, ![E, 1]⟩ w) (e : Fin E) (c : Fin C) :
    (rowsDims N E C wf).start (ix2 e c) idx 1 = 0 := by
  unfold ScatterDims.start; rw [dif_neg (show (1 : Fin 2) ∉ [(0 : Fin 2)] by decide)]

/-- The row axis is inserted: no window coordinate. -/
theorem rows_window0 (e : Fin E) (c : Fin C) : (rowsDims N E C wf).window (ix2 e c) 0 = 0 := by
  unfold ScatterDims.window
  have h0 : (0 : Fin 2) ∉ (List.finRange 2).filter (· ∉ [(0 : Fin 2)]) := by decide
  exact dif_neg h0

/-- The column axis's window coordinate is the update's column. -/
theorem rows_window1 (e : Fin E) (c : Fin C) : (rowsDims N E C wf).window (ix2 e c) 1 = c.val := rfl

/-- WHERE AN UPDATE LANDS, for those dimension numbers: update `(e, c)` lands on operand element `(n, c')` exactly when
    the columns agree and the update's scatter index, read signed, is `n`. -/
theorem rows_resultIdx (idx : IVec ⟨2, ![E, 1]⟩ w) (e : Fin E) (c c' : Fin C) (n : Fin N) :
    (rowsDims N E C wf).resultIdx? (ix2 e c) idx = some (ix2 n c') ↔
      (c = c' ∧ (idx (ix2 e 0)).toInt = (n.val : ℤ)) := by
  unfold ScatterDims.resultIdx?
  constructor
  · intro h
    split at h
    · rename_i hall
      have hf := Option.some.inj h
      have h0 : ((rowsDims N E C wf).start (ix2 e c) idx 0 + ((rowsDims N E C wf).window (ix2 e c) 0 : ℕ)).toNat = n.val :=
        congrArg Fin.val (congrFun hf 0)
      have h1 : ((rowsDims N E C wf).start (ix2 e c) idx 1 + ((rowsDims N E C wf).window (ix2 e c) 1 : ℕ)).toNat = c'.val :=
        congrArg Fin.val (congrFun hf 1)
      have hr0 := (hall 0).1
      rw [rows_start0, rows_window0] at h0 hr0
      rw [rows_start1, rows_window1] at h1
      exact ⟨Fin.ext (by omega), by omega⟩
    · cases h
  · rintro ⟨rfl, hq⟩
    have hall : ∀ a, 0 ≤ (rowsDims N E C wf).start (ix2 e c) idx a + ((rowsDims N E C wf).window (ix2 e c) a : ℕ) ∧
        (rowsDims N E C wf).start (ix2 e c) idx a + ((rowsDims N E C wf).window (ix2 e c) a : ℕ) <
          ((⟨2, ![N, C]⟩ : Shape).size a : ℕ) := by
      intro a
      match a with
      | ⟨0, _⟩ =>
        show 0 ≤ (rowsDims N E C wf).start (ix2 e c) idx 0 + ((rowsDims N E C wf).window (ix2 e c) 0 : ℕ) ∧
          (rowsDims N E C wf).start (ix2 e c) idx 0 + ((rowsDims N E C wf).window (ix2 e c) 0 : ℕ) < (N : ℤ)
        rw [rows_start0, rows_window0, hq]
        have := n.isLt
        constructor <;> omega
      | ⟨1, _⟩ =>
        show 0 ≤ (rowsDims N E C wf).start (ix2 e c) idx 1 + ((rowsDims N E C wf).window (ix2 e c) 1 : ℕ) ∧
          (rowsDims N E C wf).start (ix2 e c) idx 1 + ((rowsDims N E C wf).window (ix2 e c) 1 : ℕ) < (C : ℤ)
        rw [rows_start1, rows_window1]
        have := c.isLt
        constructor <;> omega
    rw [dif_pos hall]
    congr 1
    funext a
    refine Fin.ext ?_
    match a with
    | ⟨0, _⟩ =>
      show ((rowsDims N E C wf).start (ix2 e c) idx 0 + ((rowsDims N E C wf).window (ix2 e c) 0 : ℕ)).toNat = n.val
      rw [rows_start0, rows_window0, hq]
      omega
    | ⟨1, _⟩ =>
      show ((rowsDims N E C wf).start (ix2 e c) idx 1 + ((rowsDims N E C wf).window (ix2 e c) 1 : ℕ)).toNat = c.val
      rw [rows_start1, rows_window1]
      omega

omit wf in
/-- WHERE AN UPDATE LANDS in the accumulating row scatter: update `(e, c)` lands on operand element `(n, c')` exactly
    when the columns agree and the update's scatter index, read as a signed integer and NOT clamped, is `n`; an update
    whose index is negative or at least `N` lands nowhere. -/
theorem scatter_rows_resultIdx (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (idx : IVec ⟨2, ![E, 1]⟩ w) (e : Fin E) (c c' : Fin C) (n : Fin N) :
    d.resultIdx? (ix2 e c) idx = some (ix2 n c') ↔ (c = c' ∧ (idx (ix2 e 0)).toInt = (n.val : ℤ)) := by
  obtain ⟨uw, iw, sd, iv, wf'⟩ := d
  simp only at h1 h2 h3 h4
  subst h1 h2 h3 h4
  exact rows_resultIdx wf' idx e c c' n

omit wf in
/-- THE ACCUMULATING ROW SCATTER READ AT `(n, c)`, over the extended reals: the operand's element plus the sum of
    column `c` of the update rows whose scatter index, read signed, is `n` — the segment sum of the updates over the
    rows sent to `n`. Rows with an out-of-range index contribute to no element. -/
theorem scatterAdd_rows_apply {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![E, 1]⟩ w) (upd : FVec Ideal ⟨2, ![E, C]⟩ φ)
    (n : Fin N) (c : Fin C) :
    Host.scatterAdd (F := Ideal) d x idx upd (ix2 n c) =
      x (ix2 n c) + ∑ e ∈ Finset.univ.filter (fun e : Fin E => (idx (ix2 e 0)).toInt = (n.val : ℤ)), upd (ix2 e c) := by
  show Ideal.hostScatterAdd d x idx upd (ix2 n c) = _
  unfold Ideal.hostScatterAdd
  congr 1
  rw [Finset.sum_filter, sum_idx2, Finset.sum_filter]
  refine Finset.sum_congr rfl fun a _ => ?_
  have key : ∀ b : Fin C, (if d.resultIdx? (ix2 a b) idx = some (ix2 n c) then upd (ix2 a b) else 0) =
      if b = c then (if (idx (ix2 a 0)).toInt = (n.val : ℤ) then upd (ix2 a c) else 0) else 0 := by
    intro b
    by_cases hb : b = c
    · subst hb
      by_cases hq : (idx (ix2 a 0)).toInt = (n.val : ℤ)
      · rw [if_pos ((scatter_rows_resultIdx d h1 h2 h3 h4 idx a b b n).mpr ⟨rfl, hq⟩), if_pos rfl, if_pos hq]
      · rw [if_neg (fun h => hq ((scatter_rows_resultIdx d h1 h2 h3 h4 idx a b b n).mp h).2), if_pos rfl, if_neg hq]
    · rw [if_neg (fun h => hb ((scatter_rows_resultIdx d h1 h2 h3 h4 idx a b c n).mp h).1), if_neg hb]
  rw [Finset.sum_congr rfl (fun b _ => key b), Finset.sum_ite_eq' Finset.univ c, if_pos (Finset.mem_univ c)]

end Scatter

end Idealize.ShloMosaic.RowGatherScatter

end
-- ==== Proof.LibScaledSegmentSum.lean ====
/-
  Scaling a segment sum.  On the extended reals a finite sum may be multiplied through by a factor that is
  non-negative and not `⊤` (for such a factor multiplication distributes over every sum, infinite terms included),
  so scaling every row that an accumulating row scatter adds into row `n` by one such factor is the same as
  scaling the scattered total.  The per-node factor of a symmetrically normalised graph convolution — the inverse
  square root of a degree where the degree is positive, zero elsewhere — is such a factor whatever the degree is.
-/
import proofs.«126378_j16501264351680_2_alg».proof.Proof.LibRowGatherScatter

noncomputable section

open scoped BigOperators

namespace Idealize.ShloMosaic.ScaledSegmentSum

open Idealize.ShloMosaic Idealize.ShloMosaic.ValueIdx Idealize.ShloMosaic.RowGatherScatter

/-- A finite sum of extended reals times a factor in `[0, ⊤)` is the sum of the scaled terms. -/
theorem sum_mul_of_nonneg_of_ne_top {ι : Type*} (S : Finset ι) (a : ι → EReal) {d : EReal} (h0 : 0 ≤ d) (ht : d ≠ ⊤) :
    (∑ e ∈ S, a e) * d = ∑ e ∈ S, a e * d := by
  classical
  induction S using Finset.induction_on with
  | empty => simp
  | insert e S he ih =>
    rw [Finset.sum_insert he, Finset.sum_insert he, EReal.right_distrib_of_nonneg_of_ne_top h0 ht, ih]

/-- The inverse square root of `y` where `y` exceeds `z = 0`, and `z' = 0` elsewhere, lies in `[0, ⊤)` for EVERY
    extended real `y`: a positive real has a positive real inverse root, and `⊤` has inverse root `0`. -/
theorem select_rsqrt_bounds (y z z' : EReal) (hz : z = 0) (hz' : z' = 0) :
    0 ≤ Scalar.select (Ideal.cmp .ogt y z) (Ideal.rsqrt y) z'
      ∧ Scalar.select (Ideal.cmp .ogt y z) (Ideal.rsqrt y) z' ≠ ⊤ := by
  subst hz hz'
  unfold Scalar.select Ideal.cmp
  by_cases hy : (0 : EReal) < y
  · have h1 : BitVec.ofBool (decide ((0 : EReal) < y)) = 1 := by simp [hy]
    rw [if_pos h1]
    induction y using EReal.rec with
    | bot => exact absurd hy (by simp)
    | top => simp
    | coe r =>
      have hr : 0 < r := by exact_mod_cast hy
      rw [Ideal.rsqrt_coe, if_neg (not_lt.mpr hr.le), if_neg hr.ne']
      exact ⟨by exact_mod_cast (inv_nonneg.mpr (Real.sqrt_nonneg r)), EReal.coe_ne_top _⟩
  · have h1 : ¬ BitVec.ofBool (decide ((0 : EReal) < y)) = 1 := by simp [hy]
    rw [if_neg h1]
    exact ⟨le_refl _, EReal.zero_ne_top⟩

/-- SCALING THE SCATTERED TOTAL: if, for every update row `e` that the accumulating row scatter adds into row `n`,
    `U (e, c) · s = V (e, c)` with `s` in `[0, ⊤)`, then the scatter of `U` into zeros, read at `(n, c)` and scaled by
    `s`, is the scatter of `V` into zeros read at `(n, c)`. -/
theorem scatterAdd_rows_mul {N E C w : Nat} {φ : FTy} (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (Z : FVec Ideal ⟨2, ![N, C]⟩ φ) (hZ : ∀ j, Z j = 0) (idx : IVec ⟨2, ![E, 1]⟩ w)
    (U V : FVec Ideal ⟨2, ![E, C]⟩ φ) (n : Fin N) (c : Fin C) {s : EReal} (h0 : 0 ≤ s) (ht : s ≠ ⊤)
    (hUV : ∀ e : Fin E, (idx (ix2 e 0)).toInt = (n.val : ℤ) → U (ix2 e c) * s = V (ix2 e c)) :
    Host.scatterAdd (F := Ideal) d Z idx U (ix2 n c) * s = Host.scatterAdd (F := Ideal) d Z idx V (ix2 n c) := by
  rw [scatterAdd_rows_apply d h1 h2 h3 h4, scatterAdd_rows_apply d h1 h2 h3 h4, hZ, zero_add, zero_add,
    sum_mul_of_nonneg_of_ne_top _ _ h0 ht]
  exact Finset.sum_congr rfl fun e he => hUV e (Finset.mem_filter.mp he).2

/-- A signed index that is not negative is left alone by the wrap-around `select (x < z) (x + k) x` with `z = 0`
    (the normalisation of a possibly negative row index). -/
theorem select_slt_of_nonneg {w : Nat} (x z k : BitVec w) (hz : z = 0#w) (hx : 0 ≤ x.toInt) :
    Scalar.select (IntOp.cmpi .slt x z) (x + k) x = x := by
  subst hz
  have h : x.slt (0#w) = false := by
    simp only [BitVec.slt, BitVec.toInt_zero, decide_eq_false_iff_not, not_lt]; exact hx
  simp [Scalar.select, IntOp.cmpi, h]

/-- SYMMETRIC NORMALISATION, THE TWO ARRANGEMENTS.  Rows `B` scaled by a per-node factor `D` BEFORE they are gathered
    along the edges and summed into their destination rows, the sums scaled by `D` AFTER — against every gathered row
    multiplied by `D(source) · D(destination)` and then summed: equal at every `(n, c)`, for factors in `[0, ⊤)` and any
    extended-real rows.  `dstB` names each edge's destination row (read signed by the scatter, which drops an edge
    out of range), `srcB` its source row and `dstNB` the destination row as the gather of `D` reads it (both
    clamped by the gather); an edge that lands in row `n` reads `D` at `n` (`hdst`). -/
theorem scatter_gather_scaled {N E C w : Nat} {φ : FTy} (hN : 0 < N)
    (sd sd' : ScatterDims ⟨2, ![N, C]⟩ ⟨2, ![E, 1]⟩ ⟨2, ![E, C]⟩)
    (s1 : sd.updateWindowDims = [1]) (s2 : sd.insertedWindowDims = [0]) (s3 : sd.scatterDimsToOperandDims = [0])
    (s4 : sd.indexVectorDim = 1)
    (s1' : sd'.updateWindowDims = [1]) (s2' : sd'.insertedWindowDims = [0]) (s3' : sd'.scatterDimsToOperandDims = [0])
    (s4' : sd'.indexVectorDim = 1)
    (gd gd' : GatherDims ⟨2, ![N, C]⟩ ⟨2, ![E, 1]⟩ ⟨2, ![E, C]⟩)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, C])
    (g1' : gd'.offsetDims = [1]) (g2' : gd'.collapsedSliceDims = [0]) (g3' : gd'.operandBatchingDims = [])
    (g4' : gd'.startIndicesBatchingDims = []) (g5' : gd'.startIndexMap = [0]) (g6' : gd'.indexVectorDim = 1)
    (g7' : gd'.sliceSizes = ![1, C])
    (gv : GatherDims ⟨1, ![N]⟩ ⟨2, ![E, 1]⟩ ⟨1, ![E]⟩)
    (v1 : gv.offsetDims = []) (v2 : gv.collapsedSliceDims = [0]) (v3 : gv.operandBatchingDims = [])
    (v4 : gv.startIndicesBatchingDims = []) (v5 : gv.startIndexMap = [0]) (v6 : gv.indexVectorDim = 1)
    (v7 : gv.sliceSizes = ![1])
    (Z Z' : FVec Ideal ⟨2, ![N, C]⟩ φ) (hZ : ∀ j, Z j = 0) (hZ' : ∀ j, Z' j = 0)
    (dstB srcB dstNB : IVec ⟨2, ![E, 1]⟩ w)
    (D : FVec Ideal ⟨1, ![N]⟩ φ) (hD : ∀ n : Fin N, 0 ≤ D (ix1 n) ∧ D (ix1 n) ≠ ⊤)
    (hdst : ∀ (e : Fin E) (n : Fin N), (dstB (ix2 e 0)).toInt = (n.val : ℤ) →
      min (dstNB (ix2 e 0)).toInt.toNat (N - 1) = n.val)
    (A B : FVec Ideal ⟨2, ![N, C]⟩ φ) (hAB : ∀ (n : Fin N) (c : Fin C), A (ix2 n c) = B (ix2 n c) * D (ix1 n))
    (M : FVec Ideal ⟨2, ![E, C]⟩ φ)
    (hM : ∀ (e : Fin E) (c : Fin C), M (ix2 e c)
      = Host.gather gd' B srcB (ix2 e c) * (Host.gather gv D srcB (ix1 e) * Host.gather gv D dstNB (ix1 e)))
    (n : Fin N) (c : Fin C) :
    Host.scatterAdd (F := Ideal) sd Z dstB (Host.gather gd A srcB) (ix2 n c) * D (ix1 n)
      = Host.scatterAdd (F := Ideal) sd' Z' dstB M (ix2 n c) := by
  rw [scatterAdd_rows_apply sd s1 s2 s3 s4, scatterAdd_rows_apply sd' s1' s2' s3' s4', hZ, hZ', zero_add, zero_add,
    sum_mul_of_nonneg_of_ne_top _ _ (hD n).1 (hD n).2]
  refine Finset.sum_congr rfl fun e he => ?_
  have hl : (dstB (ix2 e 0)).toInt = (n.val : ℤ) := (Finset.mem_filter.mp he).2
  have ht : (⟨min (dstNB (ix2 e 0)).toInt.toNat (N - 1), by omega⟩ : Fin N) = n := Fin.ext (hdst e n hl)
  rw [hM, gather_rows_apply hN gd g1 g2 g3 g4 g5 g6 g7, gather_rows_apply hN gd' g1' g2' g3' g4' g5' g6' g7',
    gather_vec_apply hN gv v1 v2 v3 v4 v5 v6 v7, gather_vec_apply hN gv v1 v2 v3 v4 v5 v6 v7, ht, hAB, mul_assoc]

end Idealize.ShloMosaic.ScaledSegmentSum

end
-- ==== Proof.RefLayers.lean ====
/-
  The reference program's two graph-convolution layers, read at an index.

  The reference normalises every message: along each edge it gathers a row of `H W` at the source, multiplies it by
  `d(source) · d(destination)` — `d` the per-node scale, the inverse square root of the degree where the degree is
  positive and zero elsewhere —, and sums the messages into their destination rows.  The statements below put that in the
  other arrangement: for any table `A` whose row `n` is row `n` of `H W` scaled by `d(n)`, the plain edge sum of `A`'s
  gathered rows, scaled by `d(n)` afterwards, is the reference's edge sum at `(n, c)`.  This rests on three facts about
  the reference's own stages: the scale lies in `[0, ⊤)` at every node, so multiplying by it distributes over the
  extended-real sums; an edge that the sum sends to row `n` has destination index `n`, which neither the wrap-around of
  negative indices nor the clamp of the gather changes, so it reads the scale at `n`; and the second layer recomputes
  the scale and the columns of edge ends by the same operations from the same edge list, so they are the first layer's.
  Around the two edge sums: the two matrix products as sums over the contracted axis, the bias and rectifier of the
  hidden table, and the bias added before the final log-softmax.  The tables `H W`, the scale and the edge columns stay
  unopened functions throughout.
-/
import proofs.«126378_j16501264351680_2_alg».proof.Proof.RefRead
import proofs.«126378_j16501264351680_2_alg».proof.Proof.Spec
import proofs.«126378_j16501264351680_2_alg».proof.Proof.LibScaledSegmentSum

noncomputable section

open scoped BigOperators

namespace Cert.Gcn.RefLayers

open Cert.ReferenceIdeal Cert.ReferenceIdeal.Gen Cert.ReferenceIdeal.ReadP Idealize.ShloMosaic Idealize.ShloMosaic.ValueIdx
open Idealize.ShloMosaic.RowGatherScatter Idealize.ShloMosaic.ScaledSegmentSum

/-! ## The per-node scale and the edge columns -/

/-- THE SCALE IS A FACTOR IN `[0, ⊤)` at every node, whatever the degree is. -/
theorem dinv_bounds (x1 : (⟨S2x3200000, .i32⟩ : BufTy).Contents (Elt Ideal)) (n : Fin 100000) :
    0 ≤ val_main_v15 (F := Ideal) x1 (ix1 n) ∧ val_main_v15 (F := Ideal) x1 (ix1 n) ≠ ⊤ := by
  rw [val_main_v15_apply, val_main_v13_apply, val_main_v14_apply, val_main_call0_v1_apply, val_main_call0_v0_apply,
    val_main_cst_2_apply, val_main_v12_apply, val_main_cst_1_apply]
  generalize val_main_v11 (F := Ideal) x1 (ix1 n) = y
  exact select_rsqrt_bounds y _ _ Ideal.ofBits_zero_f32 Ideal.ofBits_zero_f32

/-- The second layer computes the scale, and each column of edge ends, by the same operations from the same edge list. -/
theorem dinv_again (x1 : (⟨S2x3200000, .i32⟩ : BufTy).Contents (Elt Ideal)) : val_main_v63 (F := Ideal) x1 = val_main_v15 (F := Ideal) x1 := rfl
theorem src_again (x1 : (⟨S2x3200000, .i32⟩ : BufTy).Contents (Elt Ideal)) : val_main_v84 (F := Ideal) x1 = val_main_v36 (F := Ideal) x1 := rfl
theorem dst_again (x1 : (⟨S2x3200000, .i32⟩ : BufTy).Contents (Elt Ideal)) : val_main_v90 (F := Ideal) x1 = val_main_v42 (F := Ideal) x1 := rfl
theorem dstN_again (x1 : (⟨S2x3200000, .i32⟩ : BufTy).Contents (Elt Ideal)) : val_main_v76 (F := Ideal) x1 = val_main_v28 (F := Ideal) x1 := rfl
theorem src_again' (x1 : (⟨S2x3200000, .i32⟩ : BufTy).Contents (Elt Ideal)) : val_main_v69 (F := Ideal) x1 = val_main_v21 (F := Ideal) x1 := rfl
/-- The column of sources the scale is gathered at is the column the features are gathered at. -/
theorem src_col (x1 : (⟨S2x3200000, .i32⟩ : BufTy).Contents (Elt Ideal)) : val_main_v21 (F := Ideal) x1 = val_main_v36 (F := Ideal) x1 := rfl

/-- AN EDGE THAT LANDS IN ROW `n` READS THE SCALE AT `n`: its destination index is `n ≥ 0`, which the wrap-around of
    negative indices leaves alone, and `n ≤ 99999`, which the clamp leaves alone. -/
theorem lands_clamp (x1 : (⟨S2x3200000, .i32⟩ : BufTy).Contents (Elt Ideal)) (e : Fin 3300000) (n : Fin 100000) :
    (val_main_v42 (F := Ideal) x1 (ix2 e 0)).toInt = (n.val : ℤ)
      → min (val_main_v28 (F := Ideal) x1 (ix2 e 0)).toInt.toNat (100000 - 1) = n.val := by
  have e42 : idx_main_v42 (ix2 e (0 : Fin 1)) = (ix1 e : S3300000.Idx) :=
    funext fun a => Fin.ext (by match a with | ⟨0, _⟩ => rfl)
  have e28 : idx_main_v28 (ix2 e (0 : Fin 1)) = (ix1 e : S3300000.Idx) :=
    funext fun a => Fin.ext (by match a with | ⟨0, _⟩ => rfl)
  rw [val_main_v42_apply, val_main_v28_apply, e42, e28, val_main_v27_apply, val_main_v24_apply, val_main_v26_apply,
    val_main_v23_apply, val_main_c_4_apply, val_main_v25_apply, val_main_c_5_apply]
  generalize val_main_v7 (F := Ideal) x1 (ix1 e) = x
  intro hx
  have h0 : 0 ≤ x.toInt := by rw [hx]; exact Int.natCast_nonneg _
  have hs : Scalar.select (IntOp.cmpi .slt x 0#32) (IntOp.addi x 100000#32) x = x :=
    select_slt_of_nonneg x 0#32 100000#32 rfl h0
  rw [hs, hx]
  have := n.isLt
  omega

/-! ## The first layer -/

/-- Row `n` of the features times the first weight matrix. -/
theorem feat1 (x0 : (⟨S100000x256, .f32⟩ : BufTy).Contents (Elt Ideal)) (x2 : (⟨S256x16, .f32⟩ : BufTy).Contents (Elt Ideal)) (n : Fin 100000) (c : Fin 16) :
    val_main_v0 (F := Ideal) x0 x2 (ix2 n c) = ∑ k : Fin 256, x0 (ix2 n k) * x2 (ix2 k c) := by
  rw [val_main_v0_apply]
  refine Finset.sum_congr rfl fun k _ => ?_
  have el : lidx_main_v0 (ix2 n c) k = (ix2 n k : S100000x256.Idx) :=
    funext fun a => Fin.ext (by match a with | ⟨0, _⟩ => rfl | ⟨1, _⟩ => rfl)
  have er : ridx_main_v0 (ix2 n c) k = (ix2 k c : S256x16.Idx) :=
    funext fun a => Fin.ext (by match a with | ⟨0, _⟩ => rfl | ⟨1, _⟩ => rfl)
  rw [el, er]

/-- THE FIRST LAYER'S EDGE SUM, THE TWO ARRANGEMENTS: rows scaled before the gather and the sums scaled after, against
    every message multiplied by the scales of both its ends. -/
theorem layer1 (x0 : (⟨S100000x256, .f32⟩ : BufTy).Contents (Elt Ideal)) (x1 : (⟨S2x3200000, .i32⟩ : BufTy).Contents (Elt Ideal)) (x2 : (⟨S256x16, .f32⟩ : BufTy).Contents (Elt Ideal)) (A : FVec Ideal S100000x16 .f32)
    (hA : ∀ (n : Fin 100000) (c : Fin 16),
      A (ix2 n c) = val_main_v0 (F := Ideal) x0 x2 (ix2 n c) * val_main_v15 (F := Ideal) x1 (ix1 n))
    (n : Fin 100000) (c : Fin 16) :
    Host.scatterAdd (F := Ideal) scatter_S100000x16_S3300000x1_S3300000x16_1_0_0_1 (val_main_v41 (F := Ideal))
        (val_main_v42 (F := Ideal) x1)
        (Host.gather gather_S100000x16_S3300000x1_S3300000x16_1_0_n_n_0_1_116 A (val_main_v36 (F := Ideal) x1)) (ix2 n c)
      * val_main_v15 (F := Ideal) x1 (ix1 n)
      = val_main_v43 (F := Ideal) x0 x1 x2 (ix2 n c) := by
  have hZ : ∀ j, val_main_v41 (F := Ideal) j = 0 := fun j => by
    rw [val_main_v41_apply, val_main_cst_8_apply, Ideal.ofBits_def, Ideal.ofBits_zero_f32]
  have hM : ∀ (e : Fin 3300000) (c : Fin 16), val_main_v40 (F := Ideal) x0 x1 x2 (ix2 e c)
      = Host.gather gather_S100000x16_S3300000x1_S3300000x16_1_0_n_n_0_1_116 (val_main_v0 (F := Ideal) x0 x2)
            (val_main_v36 (F := Ideal) x1) (ix2 e c)
          * (Host.gather gather_S100000_S3300000x1_S3300000_n_0_n_n_0_1_1 (val_main_v15 (F := Ideal) x1)
                (val_main_v36 (F := Ideal) x1) (ix1 e)
              * Host.gather gather_S100000_S3300000x1_S3300000_n_0_n_n_0_1_1 (val_main_v15 (F := Ideal) x1)
                (val_main_v28 (F := Ideal) x1) (ix1 e)) := fun e c => by
    have ei : idx_main_v38 (idx_main_v39 (ix2 e c)) = (ix1 e : S3300000.Idx) :=
      funext fun a => Fin.ext (by match a with | ⟨0, _⟩ => rfl)
    rw [val_main_v40_apply, val_main_v39_apply, val_main_v38_apply, ei, val_main_v30_apply, Ideal.mulf_def, Ideal.mulf_def]
    unfold val_main_v37 val_main_v22 val_main_v29
    rw [src_col x1]
  unfold val_main_v43
  exact scatter_gather_scaled (by decide) scatter_S100000x16_S3300000x1_S3300000x16_1_0_0_1
    scatter_S100000x16_S3300000x1_S3300000x16_1_0_0_1 rfl rfl rfl rfl rfl rfl rfl rfl
    gather_S100000x16_S3300000x1_S3300000x16_1_0_n_n_0_1_116 gather_S100000x16_S3300000x1_S3300000x16_1_0_n_n_0_1_116
    rfl rfl rfl rfl rfl rfl rfl rfl rfl rfl rfl rfl rfl rfl
    gather_S100000_S3300000x1_S3300000_n_0_n_n_0_1_1 rfl rfl rfl rfl rfl rfl rfl
    (val_main_v41 (F := Ideal)) (val_main_v41 (F := Ideal)) hZ hZ
    (val_main_v42 (F := Ideal) x1) (val_main_v36 (F := Ideal) x1) (val_main_v28 (F := Ideal) x1)
    (val_main_v15 (F := Ideal) x1) (dinv_bounds x1) (lands_clamp x1)
    A (val_main_v0 (F := Ideal) x0 x2) hA (val_main_v40 (F := Ideal) x0 x1 x2) hM n c

/-- The hidden table: the edge sums plus the bias, rectified. -/
theorem hidden (x0 : (⟨S100000x256, .f32⟩ : BufTy).Contents (Elt Ideal)) (x1 : (⟨S2x3200000, .i32⟩ : BufTy).Contents (Elt Ideal)) (x2 : (⟨S256x16, .f32⟩ : BufTy).Contents (Elt Ideal)) (x3 : (⟨S16, .f32⟩ : BufTy).Contents (Elt Ideal)) (n : Fin 100000) (k : Fin 16) :
    val_main_v47 (F := Ideal) x0 x1 x2 x3 (ix2 n k) = max (val_main_v43 (F := Ideal) x0 x1 x2 (ix2 n k) + x3 (ix1 k)) 0 := by
  have eb : idx_main_v44 (idx_main_v45 (ix2 n k)) = (ix1 k : S16.Idx) :=
    funext fun a => Fin.ext (by match a with | ⟨0, _⟩ => rfl)
  rw [val_main_v47_apply, val_main_v46_apply, val_main_v45_apply, val_main_v44_apply, eb, val_main_call1_v0_apply,
    val_main_call1_cst_apply, Ideal.maximumf_def, Ideal.addf_def, Ideal.ofBits_def, Ideal.ofBits_zero_f32]

/-! ## The second layer -/

/-- Row `n` of the hidden table times the second weight matrix. -/
theorem feat2 (x0 : (⟨S100000x256, .f32⟩ : BufTy).Contents (Elt Ideal)) (x1 : (⟨S2x3200000, .i32⟩ : BufTy).Contents (Elt Ideal)) (x2 : (⟨S256x16, .f32⟩ : BufTy).Contents (Elt Ideal)) (x3 : (⟨S16, .f32⟩ : BufTy).Contents (Elt Ideal)) (x4 : (⟨S16x8, .f32⟩ : BufTy).Contents (Elt Ideal)) (n : Fin 100000) (c : Fin 8) :
    val_main_v48 (F := Ideal) x0 x1 x2 x3 x4 (ix2 n c)
      = ∑ k : Fin 16, val_main_v47 (F := Ideal) x0 x1 x2 x3 (ix2 n k) * x4 (ix2 k c) := by
  rw [val_main_v48_apply]
  refine Finset.sum_congr rfl fun k _ => ?_
  have el : lidx_main_v48 (ix2 n c) k = (ix2 n k : S100000x16.Idx) :=
    funext fun a => Fin.ext (by match a with | ⟨0, _⟩ => rfl | ⟨1, _⟩ => rfl)
  have er : ridx_main_v48 (ix2 n c) k = (ix2 k c : S16x8.Idx) :=
    funext fun a => Fin.ext (by match a with | ⟨0, _⟩ => rfl | ⟨1, _⟩ => rfl)
  rw [el, er]

/-- THE SECOND LAYER'S EDGE SUM, THE TWO ARRANGEMENTS, over the same columns of edge ends and the same scale. -/
theorem layer2 (x0 : (⟨S100000x256, .f32⟩ : BufTy).Contents (Elt Ideal)) (x1 : (⟨S2x3200000, .i32⟩ : BufTy).Contents (Elt Ideal)) (x2 : (⟨S256x16, .f32⟩ : BufTy).Contents (Elt Ideal)) (x3 : (⟨S16, .f32⟩ : BufTy).Contents (Elt Ideal)) (x4 : (⟨S16x8, .f32⟩ : BufTy).Contents (Elt Ideal)) (A : FVec Ideal S100000x8 .f32)
    (hA : ∀ (n : Fin 100000) (c : Fin 8),
      A (ix2 n c) = val_main_v48 (F := Ideal) x0 x1 x2 x3 x4 (ix2 n c) * val_main_v15 (F := Ideal) x1 (ix1 n))
    (n : Fin 100000) (c : Fin 8) :
    Host.scatterAdd (F := Ideal) scatter_S100000x8_S3300000x1_S3300000x8_1_0_0_1 (val_main_v89 (F := Ideal))
        (val_main_v42 (F := Ideal) x1)
        (Host.gather gather_S100000x8_S3300000x1_S3300000x8_1_0_n_n_0_1_18 A (val_main_v36 (F := Ideal) x1)) (ix2 n c)
      * val_main_v15 (F := Ideal) x1 (ix1 n)
      = val_main_v91 (F := Ideal) x0 x1 x2 x3 x4 (ix2 n c) := by
  have hZ : ∀ j, val_main_v89 (F := Ideal) j = 0 := fun j => by
    rw [val_main_v89_apply, val_main_cst_19_apply, Ideal.ofBits_def, Ideal.ofBits_zero_f32]
  have hM : ∀ (e : Fin 3300000) (c : Fin 8), val_main_v88 (F := Ideal) x0 x1 x2 x3 x4 (ix2 e c)
      = Host.gather gather_S100000x8_S3300000x1_S3300000x8_1_0_n_n_0_1_18 (val_main_v48 (F := Ideal) x0 x1 x2 x3 x4)
            (val_main_v36 (F := Ideal) x1) (ix2 e c)
          * (Host.gather gather_S100000_S3300000x1_S3300000_n_0_n_n_0_1_1 (val_main_v15 (F := Ideal) x1)
                (val_main_v36 (F := Ideal) x1) (ix1 e)
              * Host.gather gather_S100000_S3300000x1_S3300000_n_0_n_n_0_1_1 (val_main_v15 (F := Ideal) x1)
                (val_main_v28 (F := Ideal) x1) (ix1 e)) := fun e c => by
    have ei : idx_main_v86 (idx_main_v87 (ix2 e c)) = (ix1 e : S3300000.Idx) :=
      funext fun a => Fin.ext (by match a with | ⟨0, _⟩ => rfl)
    rw [val_main_v88_apply, val_main_v87_apply, val_main_v86_apply, ei, val_main_v78_apply, Ideal.mulf_def, Ideal.mulf_def]
    unfold val_main_v85 val_main_v70 val_main_v77
    rw [dinv_again x1, src_again x1, src_again' x1, src_col x1, dstN_again x1]
  unfold val_main_v91
  rw [dst_again x1]
  exact scatter_gather_scaled (by decide) scatter_S100000x8_S3300000x1_S3300000x8_1_0_0_1
    scatter_S100000x8_S3300000x1_S3300000x8_1_0_0_1 rfl rfl rfl rfl rfl rfl rfl rfl
    gather_S100000x8_S3300000x1_S3300000x8_1_0_n_n_0_1_18 gather_S100000x8_S3300000x1_S3300000x8_1_0_n_n_0_1_18
    rfl rfl rfl rfl rfl rfl rfl rfl rfl rfl rfl rfl rfl rfl
    gather_S100000_S3300000x1_S3300000_n_0_n_n_0_1_1 rfl rfl rfl rfl rfl rfl rfl
    (val_main_v89 (F := Ideal)) (val_main_v89 (F := Ideal)) hZ hZ
    (val_main_v42 (F := Ideal) x1) (val_main_v36 (F := Ideal) x1) (val_main_v28 (F := Ideal) x1)
    (val_main_v15 (F := Ideal) x1) (dinv_bounds x1) (lands_clamp x1)
    A (val_main_v48 (F := Ideal) x0 x1 x2 x3 x4) hA (val_main_v88 (F := Ideal) x0 x1 x2 x3 x4) hM n c

/-- The table the log-softmax is taken of: the second layer's edge sums plus the bias. -/
theorem out_bias (x0 : (⟨S100000x256, .f32⟩ : BufTy).Contents (Elt Ideal)) (x1 : (⟨S2x3200000, .i32⟩ : BufTy).Contents (Elt Ideal)) (x2 : (⟨S256x16, .f32⟩ : BufTy).Contents (Elt Ideal)) (x3 : (⟨S16, .f32⟩ : BufTy).Contents (Elt Ideal)) (x4 : (⟨S16x8, .f32⟩ : BufTy).Contents (Elt Ideal)) (x5 : (⟨S8, .f32⟩ : BufTy).Contents (Elt Ideal)) (n : Fin 100000) (r : Fin 8) :
    val_main_v94 (F := Ideal) x0 x1 x2 x3 x4 x5 (ix2 n r)
      = val_main_v91 (F := Ideal) x0 x1 x2 x3 x4 (ix2 n r) + x5 (ix1 r) := by
  have eb : idx_main_v92 (idx_main_v93 (ix2 n r)) = (ix1 r : S8.Idx) :=
    funext fun a => Fin.ext (by match a with | ⟨0, _⟩ => rfl)
  rw [val_main_v94_apply, val_main_v93_apply, val_main_v92_apply, eb, Ideal.addf_def]

end Cert.Gcn.RefLayers

end
-- ==== Proof.RefTail.lean ====
/-
  The last stages of the reference program, read at an index: the row-wise log-softmax that ends it.

  The reference takes, of the table `T` its earlier stages produce (100000 rows of 8), each row's maximum by a reduce
  with a maximum body from `-∞` — on the extended reals the fold of `max` from `⊥` over the row's eight entries —, takes
  the maximum of that against `-∞` once more (which changes nothing), spreads it back over the row and subtracts it,
  sums the exponentials of the shifted entries from zero, and subtracts the logarithm of that sum from the shifted entry.
  At `(n, q)` this is `(T(n,q) - M) - log Σ_r exp (T(n,r) - M)` with `M` the row's maximum: the function `logSoftmax` of
  the row `r ↦ T(n, r)`, at `q`.  The table `T` itself stays an unopened function of `(n, r)` throughout.
-/
import proofs.«126378_j16501264351680_2_alg».proof.Proof.RefRead
import proofs.«126378_j16501264351680_2_alg».proof.Proof.Spec
import Idealize.ShloMosaic.Lib.ValueIdx
import Idealize.ShloMosaic.PureOps.Ideal.Laws

noncomputable section

open scoped BigOperators

namespace Cert.Gcn.RefTail

open Cert.ReferenceIdeal Cert.ReferenceIdeal.Gen Cert.ReferenceIdeal.ReadP Idealize.ShloMosaic Idealize.ShloMosaic.ValueIdx

/-- The word of negative infinity denotes the least extended real. -/
theorem ofBits_negInf : Ideal.ofBits .f32 0xFF800000#32 = (⊥ : EReal) := by simp [Ideal.ofBits, Ideal.ieee]

/-- A reduce with a maximum body over the columns of a table of 100000 rows of 8, from the word of negative infinity, is
    at row `n` the row's maximum. -/
theorem reduceMax_read (Y : S100000x8.Idx → Ideal .f32) (n : Fin 100000) :
    Host.reduce (FloatOps.maximumf (F := Ideal) (φ := .f32)) Y (val_main_call3_cst (F := Ideal)) reducesTo_S100000x8_S100000_d1 h_S_ (ix1 n)
      = rowMax (fun r => Y (ix2 n r)) := by
  have h : S100000x8.Reduces [1] S100000 := by decide
  refine (Host.reduce_eq_fold_single (FloatOps.maximumf (F := Ideal) (φ := .f32)) Y _ reducesTo_S100000x8_S100000_d1 h h_S_ (ix1 n)).trans ?_
  have hl : (Y ∘ h.lift (ix1 n)) = fun r : Fin 8 => Y (ix2 n r) :=
    funext fun r => congrArg Y (funext fun a => Fin.ext (by match a with | ⟨0, _⟩ => rfl | ⟨1, _⟩ => rfl))
  show (Finset.univ : Finset (Fin 8)).fold max (Ideal.ofBits .f32 0xFF800000#32) (Y ∘ h.lift (ix1 n)) = _
  rw [ofBits_negInf, hl]
  rfl

/-- THE REFERENCE'S LAST STAGES at `(n, q)`: its result is the log-softmax, at `q`, of row `n` of the table the stages
    before produce.  The row maximum is the reduce above (the further maximum against negative infinity changes nothing),
    the shifted entries are that table less the maximum, their exponentials are summed from zero, and the result is the
    shifted entry less the logarithm of that sum. -/
theorem ref_logSoftmax (x0 : (⟨S100000x256, .f32⟩ : BufTy).Contents (Elt Ideal)) (x1 : (⟨S2x3200000, .i32⟩ : BufTy).Contents (Elt Ideal))
    (x2 : (⟨S256x16, .f32⟩ : BufTy).Contents (Elt Ideal)) (x3 : (⟨S16, .f32⟩ : BufTy).Contents (Elt Ideal))
    (x4 : (⟨S16x8, .f32⟩ : BufTy).Contents (Elt Ideal)) (x5 : (⟨S8, .f32⟩ : BufTy).Contents (Elt Ideal))
    (n : Fin 100000) (q : Fin 8) :
    val_main_v95 (F := Ideal) x0 x1 x2 x3 x4 x5 (ix2 n q)
      = Cert.Gcn.logSoftmax (fun r => val_main_v94 (F := Ideal) x0 x1 x2 x3 x4 x5 (ix2 n r)) q := by
  -- the index maps of the broadcasts and of the sum, at explicit coordinates
  have e4 : ∀ k : Fin 8, idx_main_call3_v4 (ix2 n k) = (ix2 n (0 : Fin 1) : S100000x1.Idx) := fun k =>
    funext fun a => Fin.ext (by match a with | ⟨0, _⟩ => rfl | ⟨1, _⟩ => rfl)
  have e3 : idx_main_call3_v3 (ix2 n (0 : Fin 1)) = (ix1 n : S100000.Idx) :=
    funext fun a => Fin.ext (by match a with | ⟨0, _⟩ => rfl)
  have e10 : idx_main_call3_v10 (ix2 n q) = (ix2 n (0 : Fin 1) : S100000x1.Idx) :=
    funext fun a => Fin.ext (by match a with | ⟨0, _⟩ => rfl | ⟨1, _⟩ => rfl)
  have e8 : idx_main_call3_v8 (ix2 n (0 : Fin 1)) = (ix1 n : S100000.Idx) :=
    funext fun a => Fin.ext (by match a with | ⟨0, _⟩ => rfl)
  have e7 : ∀ k : Fin 8, idx_main_call3_v7 (ix1 n) k = (ix2 n k : S100000x8.Idx) := fun k =>
    funext fun a => Fin.ext (by match a with | ⟨0, _⟩ => rfl | ⟨1, _⟩ => rfl)
  -- the row's maximum
  have h0 : val_main_call3_v0 (F := Ideal) x0 x1 x2 x3 x4 x5 (ix1 n)
      = rowMax (fun r => val_main_v94 (F := Ideal) x0 x1 x2 x3 x4 x5 (ix2 n r)) := by
    unfold val_main_call3_v0
    generalize val_main_v94 (F := Ideal) x0 x1 x2 x3 x4 x5 = Y
    exact reduceMax_read Y n
  have hM : val_main_call3_v2 (F := Ideal) x0 x1 x2 x3 x4 x5 (ix1 n)
      = rowMax (fun r => val_main_v94 (F := Ideal) x0 x1 x2 x3 x4 x5 (ix2 n r)) := by
    rw [val_main_call3_v2_apply, val_main_call3_v1_apply, val_main_call3_cst_0_apply, h0, Ideal.maximumf_def,
      Ideal.ofBits_def, ofBits_negInf]
    exact max_bot_left _
  -- the shifted entries
  have h5 : ∀ k : Fin 8, val_main_call3_v5 (F := Ideal) x0 x1 x2 x3 x4 x5 (ix2 n k)
      = val_main_v94 (F := Ideal) x0 x1 x2 x3 x4 x5 (ix2 n k)
        - rowMax (fun r => val_main_v94 (F := Ideal) x0 x1 x2 x3 x4 x5 (ix2 n r)) := fun k => by
    rw [val_main_call3_v5_apply, val_main_call3_v4_apply, val_main_call3_v3_apply, e4 k, e3, hM, Ideal.subf_def]
  -- the sum of their exponentials
  have hS : val_main_call3_v7 (F := Ideal) x0 x1 x2 x3 x4 x5 (ix1 n)
      = ∑ k : Fin 8, Ideal.exp (val_main_v94 (F := Ideal) x0 x1 x2 x3 x4 x5 (ix2 n k)
          - rowMax (fun r => val_main_v94 (F := Ideal) x0 x1 x2 x3 x4 x5 (ix2 n r))) := by
    rw [val_main_call3_v7_apply, val_main_call3_cst_1_apply, Ideal.ofBits_def, Ideal.ofBits_zero_f32, zero_add]
    refine Finset.sum_congr rfl fun k _ => ?_
    rw [e7 k, val_main_call3_v6_apply, Ideal.hostUnary_exp_def, h5 k]
  rw [val_main_v95_apply, val_main_call3_v10_apply, val_main_call3_v9_apply, val_main_call3_v8_apply, e10, e8, hS, h5 q,
    Ideal.subf_def, Ideal.hostUnary_log_def]
  rfl

end Cert.Gcn.RefTail

end
-- ==== Proof.Bridge.lean ====
/-
  The two programs compute one function.  With `d` the per-node scale, `e → n` the edges that land in row `n` and
  `s e` an edge's source row, the kernel program's first edge sum, scaled, is
      d(n) · Σ_{e → n} (X W₁)(s e) · d(s e)
  and the reference's is  Σ_{e → n} (X W₁)(s e) · (d(s e) · d(n)):  equal because `d(n)` lies in `[0, ⊤)`, where
  multiplication distributes over any sum of extended reals.  The rectified hidden rows are then equal, the second
  layer repeats the argument one table down, and the last step is the same row log-softmax on both sides.
-/
import proofs.«126378_j16501264351680_2_alg».proof.Proof.BridgeTerms
import proofs.«126378_j16501264351680_2_alg».proof.Proof.RefLayers
import proofs.«126378_j16501264351680_2_alg».proof.Proof.RefTail
import proofs.«126378_j16501264351680_2_alg».proof.Proof.Region2
import Idealize.ShloMosaic.Lib.ValueLayout

noncomputable section

open scoped BigOperators

namespace Cert.Gcn.Bridge

open Cert.ReferenceIdeal Cert.ReferenceIdeal.ReadP Idealize.ShloMosaic Idealize.ShloMosaic.ValueIdx
open Cert.Gcn

/-- The scale column at row `n` is the reference's scale at `n`. -/
theorem dinvCol_apply (x1 : (⟨S2x3200000, .i32⟩ : BufTy).Contents (Elt Ideal)) (n : Fin 100000) :
    K.dinvCol (F := Ideal) x1 (ix2 n (0 : Fin 1)) = val_main_v15 (F := Ideal) x1 (ix1 n) :=
  (Region2.shapeCast_a_a1_apply (K.dinv (F := Ideal) x1) _ n 0).trans (congrFun (BridgeTerms.dinv_eq (F := Ideal) x1) (ix1 n))

/-- The first bias as a row, read at a column. -/
theorem rowB1_apply (x3 : (⟨S16, .f32⟩ : BufTy).Contents (Elt Ideal)) (k : Fin 16) :
    K.rowB1 (F := Ideal) x3 (ix2 (0 : Fin 1) k) = x3 (ix1 k) :=
  shapeCast_a_1a_apply x3 _ 0 k

/-- The second bias as a row, read at a column. -/
theorem rowB2_apply (x5 : (⟨S8, .f32⟩ : BufTy).Contents (Elt Ideal)) (r : Fin 8) :
    K.rowB2 (F := Ideal) x5 (ix2 (0 : Fin 1) r) = x5 (ix1 r) :=
  shapeCast_a_1a_apply x5 _ 0 r

/-- FIRST LAYER: the edge sum of the pre-scaled features, post-scaled, is the reference's normalised edge sum. -/
theorem layer1_eq (x0 : (⟨S100000x256, .f32⟩ : BufTy).Contents (Elt Ideal)) (x1 : (⟨S2x3200000, .i32⟩ : BufTy).Contents (Elt Ideal)) (x2 : (⟨S256x16, .f32⟩ : BufTy).Contents (Elt Ideal)) (n : Fin 100000) (c : Fin 16) :
    K.agg16 (F := Ideal) x1 (scaledFeatures x0 x2 (K.dinvCol (F := Ideal) x1)) (ix2 n c) * val_main_v15 (F := Ideal) x1 (ix1 n)
      = val_main_v43 (F := Ideal) x0 x1 x2 (ix2 n c) := by
  rw [BridgeTerms.agg16_eq]
  exact RefLayers.layer1 x0 x1 x2 _
    (fun n c => by rw [scaledFeatures_apply, dinvCol_apply, RefLayers.feat1]) n c

/-- THE MIDDLE: the kernel's second pre-scaled table is the reference's second product table, scaled. -/
theorem mid_eq (x0 : (⟨S100000x256, .f32⟩ : BufTy).Contents (Elt Ideal)) (x1 : (⟨S2x3200000, .i32⟩ : BufTy).Contents (Elt Ideal)) (x2 : (⟨S256x16, .f32⟩ : BufTy).Contents (Elt Ideal)) (x3 : (⟨S16, .f32⟩ : BufTy).Contents (Elt Ideal)) (x4 : (⟨S16x8, .f32⟩ : BufTy).Contents (Elt Ideal)) (n : Fin 100000) (c : Fin 8) :
    midLayer (K.agg16 (F := Ideal) x1 (scaledFeatures x0 x2 (K.dinvCol (F := Ideal) x1))) (K.dinvCol (F := Ideal) x1)
        (K.rowB1 (F := Ideal) x3) x4 (ix2 n c)
      = val_main_v48 (F := Ideal) x0 x1 x2 x3 x4 (ix2 n c) * val_main_v15 (F := Ideal) x1 (ix1 n) := by
  rw [midLayer_apply, dinvCol_apply, RefLayers.feat2]
  refine congrArg (fun s => s * val_main_v15 (F := Ideal) x1 (ix1 n)) ?_
  refine Finset.sum_congr rfl fun k _ => ?_
  rw [RefLayers.hidden, rowB1_apply, layer1_eq]

/-- SECOND LAYER: the same law one table down. -/
theorem layer2_eq (x0 : (⟨S100000x256, .f32⟩ : BufTy).Contents (Elt Ideal)) (x1 : (⟨S2x3200000, .i32⟩ : BufTy).Contents (Elt Ideal)) (x2 : (⟨S256x16, .f32⟩ : BufTy).Contents (Elt Ideal)) (x3 : (⟨S16, .f32⟩ : BufTy).Contents (Elt Ideal)) (x4 : (⟨S16x8, .f32⟩ : BufTy).Contents (Elt Ideal)) (n : Fin 100000) (r : Fin 8) :
    K.agg8 (F := Ideal) x1
        (midLayer (K.agg16 (F := Ideal) x1 (scaledFeatures x0 x2 (K.dinvCol (F := Ideal) x1))) (K.dinvCol (F := Ideal) x1)
          (K.rowB1 (F := Ideal) x3) x4) (ix2 n r) * val_main_v15 (F := Ideal) x1 (ix1 n)
      = val_main_v91 (F := Ideal) x0 x1 x2 x3 x4 (ix2 n r) := by
  rw [BridgeTerms.agg8_eq]
  exact RefLayers.layer2 x0 x1 x2 x3 x4 _ (fun n c => mid_eq x0 x1 x2 x3 x4 n c) n r

/-- THE RESULT: the kernel program's function of the arguments is the reference's last stage. -/
theorem result_eq (x0 : (⟨S100000x256, .f32⟩ : BufTy).Contents (Elt Ideal)) (x1 : (⟨S2x3200000, .i32⟩ : BufTy).Contents (Elt Ideal)) (x2 : (⟨S256x16, .f32⟩ : BufTy).Contents (Elt Ideal)) (x3 : (⟨S16, .f32⟩ : BufTy).Contents (Elt Ideal)) (x4 : (⟨S16x8, .f32⟩ : BufTy).Contents (Elt Ideal)) (x5 : (⟨S8, .f32⟩ : BufTy).Contents (Elt Ideal)) :
    K.result x0 x1 x2 x3 x4 x5 = val_main_v95 (F := Ideal) x0 x1 x2 x3 x4 x5 := by
  funext j
  obtain ⟨n, q, rfl⟩ : ∃ (n : Fin 100000) (q : Fin 8), j = ix2 n q := ⟨j 0, j 1, eq_ix2 j⟩
  rw [RefTail.ref_logSoftmax]
  unfold K.result
  rw [logSoftmaxRows_apply]
  refine congrArg (fun h => logSoftmax h q) ?_
  funext r
  rw [dinvCol_apply, rowB2_apply, layer2_eq, RefLayers.out_bias]

end Cert.Gcn.Bridge

end
-- ==== Proof.lean ====
/-
  A two-layer graph convolution with symmetric normalisation, log-softmax on top, over 100000 nodes and 3200000
  edges (plus one self loop per node): the kernel program against its reference, as functions on the extended reals.

  With `d(n)` the inverse square root of node `n`'s in-degree (zero where the degree is not positive) a layer is
      out(n) = Σ_{e → n} d(src e) · d(n) · (H W)(src e) + b.
  The reference multiplies every gathered row by `d(src e) · d(dst e)` before the edge sum.  The kernel program scales
  the rows of `H W` by `d` inside the kernel that produces them, takes a plain edge sum on the host, and scales the
  sums by `d` inside the kernel that consumes them.  The two agree because `d(n)` always lies in `[0, ⊤)`, and a factor
  in that range distributes over a finite sum of arbitrary extended reals; no finiteness of the inputs is used.
  The three kernels are read as whole-table functions (rows of `X W₁` scaled; scale, bias, rectify, times `W₂`, scale;
  scale, bias, row log-softmax), the host stretches between them as the same gather-then-segment-sum the reference
  uses, and the reference stage by stage.  Nothing was rewritten when the kernel program was idealized, so the
  idealization claim is trivial; the three frames are the programs' runs with the results dropped.
-/
import proofs.«126378_j16501264351680_2_alg».proof.Defs
import proofs.«126378_j16501264351680_2_alg».proof.Proof.Gen.Kernel
import proofs.«126378_j16501264351680_2_alg».proof.Proof.Gen.Kernel.Skeleton
import proofs.«126378_j16501264351680_2_alg».proof.Proof.Gen.Kernel.Launch
import proofs.«126378_j16501264351680_2_alg».proof.Proof.Gen.Kernel.Points
import proofs.«126378_j16501264351680_2_alg».proof.Proof.Gen.Kernel.Frame
import proofs.«126378_j16501264351680_2_alg».proof.Proof.Gen.KernelIdeal
import proofs.«126378_j16501264351680_2_alg».proof.Proof.Gen.KernelIdeal.Skeleton
import proofs.«126378_j16501264351680_2_alg».proof.Proof.Gen.KernelIdeal.Launch
import proofs.«126378_j16501264351680_2_alg».proof.Proof.Gen.KernelIdeal.Points
import proofs.«126378_j16501264351680_2_alg».proof.Proof.Gen.KernelIdeal.Frame
import proofs.«126378_j16501264351680_2_alg».proof.Proof.Gen.ReferenceIdeal
import proofs.«126378_j16501264351680_2_alg».proof.Proof.Gen.Pre_finite_inputs
import proofs.«126378_j16501264351680_2_alg».proof.Proof.RefRun
import proofs.«126378_j16501264351680_2_alg».proof.Proof.RefRead
import proofs.«126378_j16501264351680_2_alg».proof.Proof.KernelRun
import proofs.«126378_j16501264351680_2_alg».proof.Proof.KernelValue
import proofs.«126378_j16501264351680_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both programs end with the same table: the kernel program's run names its
    result as one function of the arguments, the reference's run as its last stage, and the two are one function. -/
theorem algebraic : Cert.algebraic_KernelIdeal_ReferenceIdeal := by
  intro m ρ m' ρ' _ hagree
  refine ⟨fun c => Cert.Gcn.K.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Gcn.KernelValue.kernel_value m ρ c), (h c).2⟩)
      (Cert.Gcn.KernelRun.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v95_eq, (hagree c).1, (hagree c).2.1, (hagree c).2.2.1, (hagree c).2.2.2.1,
      (hagree c).2.2.2.2.1, (hagree c).2.2.2.2.2]
    exact (Cert.Gcn.Bridge.result_eq _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
